-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x129 : Shape := ⟨2, ![262144, 129]⟩
abbrev S262144x128 : Shape := ⟨2, ![262144, 128]⟩
abbrev S128x128 : Shape := ⟨2, ![128, 128]⟩
abbrev S128 : Shape := ⟨1, ![128]⟩
abbrev S_ : Shape := ⟨0, ![]⟩

class Facts : Prop where
  bcast_S_S262144x129 : S_.BroadcastsInDim S262144x129 (![] : Fin 0 → Fin S262144x129.rank)
  reducesTo_S262144x129_S_d0_1 : S262144x129.ReducesTo [0, 1] S_
  h_S_ : 0 < S_.numel
  bcast_S_S262144x128 : S_.BroadcastsInDim S262144x128 (![] : Fin 0 → Fin S262144x128.rank)
  reducesTo_S262144x128_S_d0_1 : S262144x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S128 .f32) (main_arg12 : FVec F S128x128 .f32) (main_arg13 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg12
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_v63 main_v67

def fn_part2 {F : FTy → Type} [FloatOps F] (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg10
  let main_cst_18 : FVec F S_ .f32 := constant S_ .f32 0x7F800000#32
  let main_v50 : FVec F S128x128 .f32 := broadcastInDim S128x128 ![] bcast_S_S128x128 main_cst_18
  fn_part3 (F := F) main_arg11 main_arg12 main_arg13 main_v48 main_v49 main_v50

def fn_part1 {F : FTy → Type} [FloatOps F] (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S262144x129 .f32) (main_arg1 : FVec F S262144x128 .f32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) : IVec S_ 1 :=
  let main_v0 : FVec F S262144x129 .f32 := Host.absf main_arg0
  let main_cst : FVec F S_ .f32 := constant S_ .f32 0x7F800000#32
  let main_v1 : FVec F S262144x129 .f32 := broadcastInDim S262144x129 ![] bcast_S_S262144x129 main_cst
  let main_v2 : IVec S262144x129 1 := cmpf .olt main_v0 main_v1
  let main_c : IVec S_ 1 := constantI S_ 1 1#1
  let main_v3 : IVec S_ 1 := (fun x v => Host.reduce IntOp.andi x v reducesTo_S262144x129_S_d0_1 h_S_) main_v2 main_c
  let main_v4 : FVec F S262144x128 .f32 := Host.absf main_arg1
  let main_cst_0 : FVec F S_ .f32 := constant S_ .f32 0x7F800000#32
  let main_v5 : FVec F S262144x128 .f32 := broadcastInDim S262144x128 ![] bcast_S_S262144x128 main_cst_0
  let main_v6 : IVec S262144x128 1 := cmpf .olt main_v4 main_v5
  let main_c_1 : IVec S_ 1 := constantI S_ 1 1#1
  let main_v7 : IVec S_ 1 := (fun x v => Host.reduce IntOp.andi x v reducesTo_S262144x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_v13 main_v16
-- ==== Kernel.lean ====
abbrev S262144x129 : Shape := ⟨2, ![262144, 129]⟩
abbrev S262144x128 : Shape := ⟨2, ![262144, 128]⟩
abbrev S128x128 : Shape := ⟨2, ![128, 128]⟩
abbrev S128 : Shape := ⟨1, ![128]⟩
abbrev S384x128 : Shape := ⟨2, ![384, 128]⟩
abbrev S128x384 : Shape := ⟨2, ![128, 384]⟩
abbrev S384 : Shape := ⟨1, ![384]⟩
abbrev S1x384 : Shape := ⟨2, ![1, 384]⟩
abbrev S4096x129 : Shape := ⟨2, ![4096, 129]⟩
abbrev S4096x128 : Shape := ⟨2, ![4096, 128]⟩
abbrev S4096x1 : Shape := ⟨2, ![4096, 1]⟩
abbrev S4096x384 : Shape := ⟨2, ![4096, 384]⟩

abbrev nBuf : Space → Nat
  | .hbm => 25
  | .vmem => 10
  | .smem => 0
  | _ => 0

abbrev bufTy : (tb : Table) → Fin (tcTables nBuf tb) → BufTy
  | .hbm, ⟨0, _⟩ => ⟨S262144x129, .f32⟩
  | .hbm, ⟨1, _⟩ => ⟨S262144x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S384x128, .f32⟩
  | .hbm, ⟨15, _⟩ => ⟨S128x384, .f32⟩
  | .hbm, ⟨16, _⟩ => ⟨S128x384, .bf16⟩
  | .hbm, ⟨17, _⟩ => ⟨S384x128, .f32⟩
  | .hbm, ⟨18, _⟩ => ⟨S128x384, .f32⟩
  | .hbm, ⟨19, _⟩ => ⟨S128x384, .bf16⟩
  | .hbm, ⟨20, _⟩ => ⟨S384, .f32⟩
  | .hbm, ⟨21, _⟩ => ⟨S1x384, .f32⟩
  | .hbm, ⟨22, _⟩ => ⟨S384, .f32⟩
  | .hbm, ⟨23, _⟩ => ⟨S1x384, .f32⟩
  | .hbm, ⟨24, _⟩ => ⟨S262144x128, .f32⟩
  | .local _ .vmem, ⟨0, _⟩ => ⟨S4096x129, .f32⟩
  | .local _ .vmem, ⟨1, _⟩ => ⟨S4096x129, .f32⟩
  | .local _ .vmem, ⟨2, _⟩ => ⟨S4096x128, .f32⟩
  | .local _ .vmem, ⟨3, _⟩ => ⟨S4096x128, .f32⟩
  | .local _ .vmem, ⟨4, _⟩ => ⟨S128x384, .bf16⟩
  | .local _ .vmem, ⟨5, _⟩ => ⟨S1x384, .f32⟩
  | .local _ .vmem, ⟨6, _⟩ => ⟨S128x384, .bf16⟩
  | .local _ .vmem, ⟨7, _⟩ => ⟨S1x384, .f32⟩
  | .local _ .vmem, ⟨8, _⟩ => ⟨S4096x128, .f32⟩
  | .local _ .vmem, ⟨9, _⟩ => ⟨S4096x128, .f32⟩
  | _, _ => ⟨S262144x129, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x129 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x384 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  concatenates_S128x128_S128x128_S128x128_S384x128_d0 : Shape.Concatenates [S128x128, S128x128, S128x128] S384x128 0
  transposes_S384x128_S128x384_1_0 : S384x128.Transposes [1, 0] S128x384
  bitsLt_bf16_f32 : FTy.bits .bf16 < FTy.bits .f32
  concatenates_S128_S128_S128_S384_d0 : Shape.Concatenates [S128, S128, S128] S384 0
  shapeCasts_S384_S1x384 : S384.ShapeCasts S1x384
  inb_S4096x129_S4096x129_0_0 : ∀ a, (![0, 0] : Fin 2 → Nat) a + S4096x129.size a ≤ S4096x129.size a
  h_S4096x129 : 0 < S4096x129.numel
  slices_S4096x129_o0_0_S4096x128 : S4096x129.Slices ![0, 0] S4096x128
  slices_S4096x129_o0_128_S4096x1 : S4096x129.Slices ![0, 128] S4096x1
  inb_S4096x128_S4096x128_0_0 : ∀ a, (![0, 0] : Fin 2 → Nat) a + S4096x128.size a ≤ S4096x128.size a
  h_S4096x128 : 0 < S4096x128.numel
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S4096x384 : S1x384.Broadcasts S4096x384
  slices_S4096x384_o0_0_S4096x128 : S4096x384.Slices ![0, 0] S4096x128
  slices_S4096x384_o0_128_S4096x128 : S4096x384.Slices ![0, 128] S4096x128
  slices_S4096x384_o0_256_S4096x128 : S4096x384.Slices ![0, 256] S4096x128
  broadcasts_S4096x1_S4096x128 : S4096x1.Broadcasts S4096x128
  dot_S4096x128_S128x384_S4096x384_1_0_0_1_n_n_wf : DotDims.WF S4096x128 S128x384 S4096x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x129.size a ≤ S262144x129.size a
  hwx0_0 : ∀ i : grid0.Coords, EltTy.bits .f32 = 32 ∨ (Rect.block (s := S262144x129) S4096x129.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S262144x128.size a
  hwx0_1 : ∀ i : grid0.Coords, EltTy.bits .f32 = 32 ∨ (Rect.block (s := S262144x128) S4096x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x384.size a ≤ S128x384.size a
  hwx0_2 : ∀ i : grid0.Coords, EltTy.bits .bf16 = 32 ∨ (Rect.block (s := S128x384) S128x384.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x384.size a ≤ S1x384.size a
  hwx0_3 : ∀ i : grid0.Coords, EltTy.bits .f32 = 32 ∨ (Rect.block (s := S1x384) S1x384.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x384.size a ≤ S128x384.size a
  hwx0_4 : ∀ i : grid0.Coords, EltTy.bits .bf16 = 32 ∨ (Rect.block (s := S128x384) S128x384.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x384.size a ≤ S1x384.size a
  hwx0_5 : ∀ i : grid0.Coords, EltTy.bits .f32 = 32 ∨ (Rect.block (s := S1x384) S1x384.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4096x128.size a ≤ S262144x128.size a
  hwx0_6 : ∀ i : grid0.Coords, EltTy.bits .f32 = 32 ∨ (Rect.block (s := S262144x128) S4096x128.size (cc0_transform_6 i) (hinb0_6 i)).WholeWords (EltTy.packing .f32)

variable [Facts₀]

def dot_S4096x128_S128x384_S4096x384_1_0_0_1_n_n : DotDims S4096x128 S128x384 S4096x384 where
  lhsContracting := [1]
  rhsContracting := [0]
  lhsNonContracting := [0]
  rhsNonContracting := [1]
  lhsBatch := []
  rhsBatch := []
  wf := dot_S4096x128_S128x384_S4096x384_1_0_0_1_n_n_wf

abbrev win0_0 : Pipeline.Window sig grid0 :=
  Pipeline.Window.ofSpec (Memref.whole main_arg0) S4096x129.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S128x384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x384.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S128x384.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1x384.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S4096x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S262144x129 : Shape := ⟨2, ![262144, 129]⟩
abbrev S262144x128 : Shape := ⟨2, ![262144, 128]⟩
abbrev S128x128 : Shape := ⟨2, ![128, 128]⟩
abbrev S128 : Shape := ⟨1, ![128]⟩
abbrev S262144x1 : Shape := ⟨2, ![262144, 1]⟩
abbrev S1x128 : Shape := ⟨2, ![1, 128]⟩
abbrev S_ : Shape := ⟨0, ![]⟩

abbrev nBuf : Space → Nat
  | .hbm => 69
  | .vmem => 0
  | .smem => 0
  | _ => 0

abbrev bufTy : (tb : Table) → Fin (tcTables nBuf tb) → BufTy
  | .hbm, ⟨0, _⟩ => ⟨S262144x129, .f32⟩
  | .hbm, ⟨1, _⟩ => ⟨S262144x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S262144x128, .f32⟩
  | .hbm, ⟨15, _⟩ => ⟨S262144x1, .f32⟩
  | .hbm, ⟨16, _⟩ => ⟨S262144x128, .f32⟩
  | .hbm, ⟨17, _⟩ => ⟨S1x128, .f32⟩
  | .hbm, ⟨18, _⟩ => ⟨S262144x128, .f32⟩
  | .hbm, ⟨19, _⟩ => ⟨S262144x128, .f32⟩
  | .hbm, ⟨20, _⟩ => ⟨S262144x128, .f32⟩
  | .hbm, ⟨21, _⟩ => ⟨S1x128, .f32⟩
  | .hbm, ⟨22, _⟩ => ⟨S262144x128, .f32⟩
  | .hbm, ⟨23, _⟩ => ⟨S262144x128, .f32⟩
  | .hbm, ⟨24, _⟩ => ⟨S262144x128, .f32⟩
  | .hbm, ⟨25, _⟩ => ⟨S262144x128, .f32⟩
  | .hbm, ⟨26, _⟩ => ⟨S262144x128, .f32⟩
  | .hbm, ⟨27, _⟩ => ⟨S_, .f32⟩
  | .hbm, ⟨28, _⟩ => ⟨S262144x128, .f32⟩
  | .hbm, ⟨29, _⟩ => ⟨S262144x128, .f32⟩
  | .hbm, ⟨30, _⟩ => ⟨S_, .f32⟩
  | .hbm, ⟨31, _⟩ => ⟨S262144x128, .f32⟩
  | .hbm, ⟨32, _⟩ => ⟨S262144x128, .f32⟩
  | .hbm, ⟨33, _⟩ => ⟨S262144x128, .f32⟩
  | .hbm, ⟨34, _⟩ => ⟨S262144x128, .f32⟩
  | .hbm, ⟨35, _⟩ => ⟨S262144x128, .f32⟩
  | .hbm, ⟨36, _⟩ => ⟨S1x128, .f32⟩
  | .hbm, ⟨37, _⟩ => ⟨S262144x128, .f32⟩
  | .hbm, ⟨38, _⟩ => ⟨S262144x128, .f32⟩
  | .hbm, ⟨39, _⟩ => ⟨S262144x128, .f32⟩
  | .hbm, ⟨40, _⟩ => ⟨S1x128, .f32⟩
  | .hbm, ⟨41, _⟩ => ⟨S262144x128, .f32⟩
  | .hbm, ⟨42, _⟩ => ⟨S262144x128, .f32⟩
  | .hbm, ⟨43, _⟩ => ⟨S262144x128, .f32⟩
  | .hbm, ⟨44, _⟩ => ⟨S262144x128, .f32⟩
  | .hbm, ⟨45, _⟩ => ⟨S262144x128, .f32⟩
  | .hbm, ⟨46, _⟩ => ⟨S_, .f32⟩
  | .hbm, ⟨47, _⟩ => ⟨S262144x128, .f32⟩
  | .hbm, ⟨48, _⟩ => ⟨S262144x128, .f32⟩
  | .hbm, ⟨49, _⟩ => ⟨S_, .f32⟩
  | .hbm, ⟨50, _⟩ => ⟨S262144x128, .f32⟩
  | .hbm, ⟨51, _⟩ => ⟨S262144x128, .f32⟩
  | .hbm, ⟨52, _⟩ => ⟨S262144x128, .f32⟩
  | .hbm, ⟨53, _⟩ => ⟨S1x128, .f32⟩
  | .hbm, ⟨54, _⟩ => ⟨S262144x128, .f32⟩
  | .hbm, ⟨55, _⟩ => ⟨S262144x128, .f32⟩
  | .hbm, ⟨56, _⟩ => ⟨S262144x128, .f32⟩
  | .hbm, ⟨57, _⟩ => ⟨S1x128, .f32⟩
  | .hbm, ⟨58, _⟩ => ⟨S262144x128, .f32⟩
  | .hbm, ⟨59, _⟩ => ⟨S262144x128, .f32⟩
  | .hbm, ⟨60, _⟩ => ⟨S262144x128, .f32⟩
  | .hbm, ⟨61, _⟩ => ⟨S262144x128, .f32⟩
  | .hbm, ⟨62, _⟩ => ⟨S262144x128, .f32⟩
  | .hbm, ⟨63, _⟩ => ⟨S_, .f32⟩
  | .hbm, ⟨64, _⟩ => ⟨S262144x128, .f32⟩
  | .hbm, ⟨65, _⟩ => ⟨S262144x128, .f32⟩
  | .hbm, ⟨66, _⟩ => ⟨S262144x128, .f32⟩
  | .hbm, ⟨67, _⟩ => ⟨S262144x128, .f32⟩
  | .hbm, ⟨68, _⟩ => ⟨S262144x128, .f32⟩
  | _, _ => ⟨S262144x129, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst : Ref sig .tc := ⟨.hbm, 27, rfl⟩
abbrev main_v13 : Ref sig .tc := ⟨.hbm, 28, rfl⟩
abbrev main_v14 : Ref sig .tc := ⟨.hbm, 29, rfl⟩
abbrev main_cst_0 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_1 : Ref sig .tc := ⟨.hbm, 46, rfl⟩
abbrev main_v30 : Ref sig .tc := ⟨.hbm, 47, rfl⟩
abbrev main_v31 : Ref sig .tc := ⟨.hbm, 48, rfl⟩
abbrev main_cst_2 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_3 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]

class Facts₀ : Prop where
  slices_S262144x129_S262144x128_0_0 : S262144x129.Slices ![0, 0] S262144x128
  slices_S262144x129_S262144x1_0_128 : S262144x129.Slices ![0, 128] S262144x1
  bcast_S128_S1x128_1 : S128.BroadcastsInDim S1x128 (![1] : Fin 1 → Fin S1x128.rank)
  bcast_S1x128_S262144x128_0_1 : S1x128.BroadcastsInDim S262144x128 (![0, 1] : Fin 2 → Fin S262144x128.rank)
  bcast_S_S262144x128 : S_.BroadcastsInDim S262144x128 (![] : Fin 0 → Fin S262144x128.rank)
  bcast_S262144x1_S262144x128_0_1 : S262144x1.BroadcastsInDim S262144x128 (![0, 1] : Fin 2 → Fin S262144x128.rank)
  dot_S262144x128_S128x128_S262144x128_1_1_0_0_n_n_wf : DotDims.WF S262144x128 S128x128 S262144x128 [1] [1] [0] [0] [] []

variable [Facts₀]

def dot_S262144x128_S128x128_S262144x128_1_1_0_0_n_n : DotDims S262144x128 S128x128 S262144x128 where
  lhsContracting := [1]
  rhsContracting := [1]
  lhsNonContracting := [0]
  rhsNonContracting := [0]
  lhsBatch := []
  rhsBatch := []
  wf := dot_S262144x128_S128x128_S262144x128_1_1_0_0_n_n_wf

class Facts : Prop extends Facts₀ where

variable [Facts]
-- ==== Proof.FrameBits.lean ====
/-
  The frame of the program `Kernel`: run from any memory, every weakly fair execution of its @main terminates
  without a fault and leaves the fourteen argument arrays as they were.

  @main is ten host operations and then one launch of the cell's kernel over a grid of 64 points. The host
  operations stack the three input-side weight matrices into one [384, 128] array, transpose it to [128, 384]
  and narrow it to the matrix unit's operand format; do the same for the hidden-side weights; and stack each
  side's three bias vectors into one row of 384. They write ten fresh buffers and no argument. The launch then
  walks the batch in 64 blocks of 4096 rows: at point `t` it stages block `t` of the inputs (4096 × 129) and of
  the hidden state (4096 × 128), keeps the two weight arrays and the two bias rows resident (fetched once, at the
  first point, their block index never moving), runs the body, and writes the body's 4096 × 128 result back to
  block `t` of the result array.

  The body reads its six input buffers whole, reads its result buffer (a value it never uses), and overwrites the
  result buffer whole with one value computed from the six it read (`stored`). So after the body every input
  buffer still holds its block and the result buffer holds `stored` of those blocks, whatever it held before:
  this is the proof data (`dats`) the pipeline's launch theorem asks for, and the body's triple (`body_triple`)
  is its one obligation. The launch theorem returns the run with every staged array described; read at the
  arguments — staged inputs come back as they were found, arrays no window stages are not touched, and no host
  operation wrote an argument — that is the frame.

  Everything is stated for an arbitrary float instance, so the same text serves the word-level program and its
  idealization.
-/
import proofs.«123495_j4535485464621_2_alg».proof.Proof.Gen.Kernel.Launch
import proofs.«123495_j4535485464621_2_alg».proof.Proof.Gen.Kernel.Skeleton
import proofs.«123495_j4535485464621_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the launch -/

/-- What core `c`'s buffers hold when the kernel is launched: the launch memory after the ten host operations. -/
abbrev V (c : Dev nD) (b : Ref sig .tc) : Buf (Elt F) ((c : Thread nD τ).loc b) :=
  StableHlo.after hostOps0 (fun b => m (c, b)) b

/-- No host operation allocates a buffer. -/
theorem hostOps0_fresh : (hostOps0 : List (HloOp τ sig (Elt F))).Forall fun op => op.fresh = ∅ := by
  simp only [List.Forall]; repeat' constructor

/-- @main is the ten host operations followed by the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer that is none of the ten the host operations write is found at the launch as it was. -/
theorem V_unwritten (c : Dev nD) (b : Ref sig .tc)
    (hb : b ≠ main_v0 ∧ b ≠ main_v1 ∧ b ≠ main_v2 ∧ b ≠ main_v3 ∧ b ≠ main_v4 ∧ b ≠ main_v5 ∧ b ≠ main_v6 ∧ b ≠ main_v7
      ∧ b ≠ main_v8 ∧ b ≠ main_v9) :
    V m c b = m ((c : Thread nD τ).loc b) :=
  StableHlo.after_of_forall_not_mem (b := Proc.devRef .tc b) _ _ (List.forall_iff_forall_mem.mp (by
    simp only [hostOps0, List.Forall, StableHlo.nary_writes, StableHlo.unary_writes, StableHlo.reshape_writes, Finset.mem_singleton]
    obtain ⟨h0, h1, h2, h3, h4, h5, h6, h7, h8, h9⟩ := hb
    exact ⟨StableHlo.devRef_ne_of_ne h0, StableHlo.devRef_ne_of_ne h1, StableHlo.devRef_ne_of_ne h2, StableHlo.devRef_ne_of_ne h3,
      StableHlo.devRef_ne_of_ne h4, StableHlo.devRef_ne_of_ne h5, StableHlo.devRef_ne_of_ne h6, StableHlo.devRef_ne_of_ne h7,
      StableHlo.devRef_ne_of_ne h8, StableHlo.devRef_ne_of_ne h9⟩))

/-! ## The windows' blocks -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body -/

/-- The whole of each staging buffer, as the body's loads and its store address it. -/
abbrev rIn : Rect S4096x129 := Rect.unit (s := S4096x129) ![0, 0] S4096x129.size inb_S4096x129_S4096x129_0_0
abbrev rHid : Rect S4096x128 := Rect.unit (s := S4096x128) ![0, 0] S4096x128.size inb_S4096x128_S4096x128_0_0
abbrev rWt : Rect S128x384 := Rect.unit (s := S128x384) ![0, 0] S128x384.size inb_S128x384_S128x384_0_0
abbrev rBias : Rect S1x384 := Rect.unit (s := S1x384) ![0, 0] S1x384.size inb_S1x384_S1x384_0_0

/-- What the body leaves in the result buffer, as a function of what the six input buffers read: its one store,
    over the whole buffer, of the cell's value of the six loaded blocks. -/
def stored (x0 : Vec F S4096x129 .f32) (x1 : Vec F S4096x128 .f32) (x2 : Vec F S128x384 .bf16) (x3 : Vec F S1x384 .f32)
    (x4 : Vec F S128x384 .bf16) (x5 : Vec F S1x384 .f32) : Vec F S4096x128 .f32 :=
  View.canon [⟨rHid, k0_pay1 (View.ld x0 rIn) (View.ld x1 rHid) (View.ld x2 rWt) (View.ld x3 rBias) (View.ld x4 rWt) (View.ld x5 rBias)⟩]

/-- The one store covers the result buffer: its rectangle is the whole shape. -/
theorem stored_cover (p0 : Vec F S4096x128 .f32) (y : S4096x128.Idx) :
    ∃ pc ∈ ([⟨rHid, p0⟩] : List (View.Piece (Elt F) S4096x128 .f32)), y ∈ pc.1.set :=
  View.cover_of_tiled [⟨rHid, p0⟩] S4096x128.size (by rfl) y

set_option maxHeartbeats 1000000 in
/-- The body's triple: on whole staging buffers, the six inputs' reading `x0 … x5` and the result's holding
    anything, the body runs to its end, leaves the inputs' as they were and the result's reading `stored x0 … x5`. -/
theorem body_triple (c : Dev nD) (E : Set ℕ) (i : grid0.Coords)
    (arg1 : Memref sig .tc .vmem S4096x129 .f32) (harg1 : arg1.IsWhole) (arg2 : Memref sig .tc .vmem S4096x128 .f32) (harg2 : arg2.IsWhole)
    (arg3 : Memref sig .tc .vmem S128x384 .bf16) (harg3 : arg3.IsWhole) (arg4 : Memref sig .tc .vmem S1x384 .f32) (harg4 : arg4.IsWhole)
    (arg5 : Memref sig .tc .vmem S128x384 .bf16) (harg5 : arg5.IsWhole) (arg6 : Memref sig .tc .vmem S1x384 .f32) (harg6 : arg6.IsWhole)
    (arg7 : Memref sig .tc .vmem S4096x128 .f32) (harg7 : arg7.IsWhole)
    (x0 : Vec F S4096x129 .f32) (x1 : Vec F S4096x128 .f32) (x2 : Vec F S128x384 .bf16) (x3 : Vec F S1x384 .f32)
    (x4 : Vec F S128x384 .bf16) (x5 : Vec F S1x384 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (stored x0 x1 x2 x3 x4 x5)) -∗ K ⟨⟩))
      ⊢ wp frame (wpE (defs₀ (F := F)) Variants.none c none) E
          (cc0__augru_kernel i arg1 harg1 arg2 harg2 arg3 harg3 arg4 harg4 arg5 harg5 arg6 harg6 arg7 harg7) K := by
  simp only [cc0__augru_kernel_eq_skeleton]; unfold cc0__augru_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (stored_cover _)

/-! ## The proof data of the launch -/

/-- On core `c`: the arrays as the launch finds them; after the body at point `t` each input buffer at its
    block and the result buffer at `stored` of the six blocks; the rest of the core's state untouched; nothing
    owed to another core; every buffer held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => stored (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t
    = stored (iblk m c 0 t) (iblk m c 1 t) (iblk m c 2 t) (iblk m c 3 t) (iblk m c 4 t) (iblk m c 5 t) := by dsimp only [dats]

/-- Each input's current staging buffer holds its block at every point — at a point that fetches it because it
    was just fetched; at a point that does not, because its block index has not moved since the last fetch and the
    body left the block in place. -/
theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl)
    (fun t => by rw [after_5]; unfold Dat.blockOf iblk; rw [A_eq]; try rfl) t d).trans
    (by unfold Dat.fetched Dat.blockOf iblk; rw [A_eq]; try rfl)

/-! ## The body obligation -/

/-- What the body is called with at point `t`: the untouched rest, and each window's current staging buffer. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' buffers hold their blocks, so the body's triple applies; the rest of the
    state passes through unread. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body_triple c Set.univ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The launch theorem's obligation, at every point. -/
theorem body_obligation (c : Dev nD) : BodyObligation (dats (F := F) m 0 c) (defs₀ (F := F)) Variants.none () Set.univ := fun t => by
  rw [bigSep_W0, bigSep_W0]
  exact body_at m c t

/-! ## The run and the frame -/

set_option backward.isDefEq.respectTransparency.types false in
/-- Every weakly fair execution of @main terminates, and in every final state each staged array is what the
    launch theorem computes from the proof data and every other unscoped buffer is as the launch found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- In any final state of that run the fourteen argument arrays are as they started. The inputs and the hidden
    state are staged by windows 0 and 1, which the launch only reads, so they come back as the launch found them;
    the twelve parameter arrays are staged by no window and are not touched; and the launch found all fourteen
    as they were, no host operation having written them. -/
theorem args_kept (r : PUnit × MemSt nD τ sig (Elt F)) (h : Pipeline.FramePost cfgs (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  ⟨((h c).1 0).trans ((((dats m) 0 c).arrAt_in 0 rfl _).trans ((A_eq m c 0).trans (V_unwritten m c main_arg0 (by decide)))),
      ((h c).1 1).trans ((((dats m) 0 c).arrAt_in 1 rfl _).trans ((A_eq m c 1).trans (V_unwritten m c main_arg1 (by decide)))),
      ((h c).2 main_arg2 (Pipeline.mem_restRefs_of main_arg2 (by decide) (by decide))).trans (V_unwritten m c main_arg2 (by decide)),
      ((h c).2 main_arg3 (Pipeline.mem_restRefs_of main_arg3 (by decide) (by decide))).trans (V_unwritten m c main_arg3 (by decide)),
      ((h c).2 main_arg4 (Pipeline.mem_restRefs_of main_arg4 (by decide) (by decide))).trans (V_unwritten m c main_arg4 (by decide)),
      ((h c).2 main_arg5 (Pipeline.mem_restRefs_of main_arg5 (by decide) (by decide))).trans (V_unwritten m c main_arg5 (by decide)),
      ((h c).2 main_arg6 (Pipeline.mem_restRefs_of main_arg6 (by decide) (by decide))).trans (V_unwritten m c main_arg6 (by decide)),
      ((h c).2 main_arg7 (Pipeline.mem_restRefs_of main_arg7 (by decide) (by decide))).trans (V_unwritten m c main_arg7 (by decide)),
      ((h c).2 main_arg8 (Pipeline.mem_restRefs_of main_arg8 (by decide) (by decide))).trans (V_unwritten m c main_arg8 (by decide)),
      ((h c).2 main_arg9 (Pipeline.mem_restRefs_of main_arg9 (by decide) (by decide))).trans (V_unwritten m c main_arg9 (by decide)),
      ((h c).2 main_arg10 (Pipeline.mem_restRefs_of main_arg10 (by decide) (by decide))).trans (V_unwritten m c main_arg10 (by decide)),
      ((h c).2 main_arg11 (Pipeline.mem_restRefs_of main_arg11 (by decide) (by decide))).trans (V_unwritten m c main_arg11 (by decide)),
      ((h c).2 main_arg12 (Pipeline.mem_restRefs_of main_arg12 (by decide) (by decide))).trans (V_unwritten m c main_arg12 (by decide)),
      ((h c).2 main_arg13 (Pipeline.mem_restRefs_of main_arg13 (by decide) (by decide))).trans (V_unwritten m c main_arg13 (by decide))⟩

/-- The frame: every weakly fair execution of @main terminates without a fault, and the fourteen argument arrays
    end as they started. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => args_kept m r h c) (run_main m ρ)

end Cert.Kernel.Hand

end
-- ==== Proof.FrameIdeal.lean ====
/-
  The frame of the program `KernelIdeal`: run from any memory, every weakly fair execution of its @main terminates
  without a fault and leaves the fourteen argument arrays as they were.

  @main is ten host operations and then one launch of the cell's kernel over a grid of 64 points. The host
  operations stack the three input-side weight matrices into one [384, 128] array, transpose it to [128, 384]
  and narrow it to the matrix unit's operand format; do the same for the hidden-side weights; and stack each
  side's three bias vectors into one row of 384. They write ten fresh buffers and no argument. The launch then
  walks the batch in 64 blocks of 4096 rows: at point `t` it stages block `t` of the inputs (4096 × 129) and of
  the hidden state (4096 × 128), keeps the two weight arrays and the two bias rows resident (fetched once, at the
  first point, their block index never moving), runs the body, and writes the body's 4096 × 128 result back to
  block `t` of the result array.

  The body reads its six input buffers whole, reads its result buffer (a value it never uses), and overwrites the
  result buffer whole with one value computed from the six it read (`stored`). So after the body every input
  buffer still holds its block and the result buffer holds `stored` of those blocks, whatever it held before:
  this is the proof data (`dats`) the pipeline's launch theorem asks for, and the body's triple (`body_triple`)
  is its one obligation. The launch theorem returns the run with every staged array described; read at the
  arguments — staged inputs come back as they were found, arrays no window stages are not touched, and no host
  operation wrote an argument — that is the frame.

  Everything is stated for an arbitrary float instance, so the same text serves the word-level program and its
  idealization.
-/
import proofs.«123495_j4535485464621_2_alg».proof.Proof.Gen.KernelIdeal.Launch
import proofs.«123495_j4535485464621_2_alg».proof.Proof.Gen.KernelIdeal.Skeleton
import proofs.«123495_j4535485464621_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the launch -/

/-- What core `c`'s buffers hold when the kernel is launched: the launch memory after the ten host operations. -/
abbrev V (c : Dev nD) (b : Ref sig .tc) : Buf (Elt F) ((c : Thread nD τ).loc b) :=
  StableHlo.after hostOps0 (fun b => m (c, b)) b

/-- No host operation allocates a buffer. -/
theorem hostOps0_fresh : (hostOps0 : List (HloOp τ sig (Elt F))).Forall fun op => op.fresh = ∅ := by
  simp only [List.Forall]; repeat' constructor

/-- @main is the ten host operations followed by the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer that is none of the ten the host operations write is found at the launch as it was. -/
theorem V_unwritten (c : Dev nD) (b : Ref sig .tc)
    (hb : b ≠ main_v0 ∧ b ≠ main_v1 ∧ b ≠ main_v2 ∧ b ≠ main_v3 ∧ b ≠ main_v4 ∧ b ≠ main_v5 ∧ b ≠ main_v6 ∧ b ≠ main_v7
      ∧ b ≠ main_v8 ∧ b ≠ main_v9) :
    V m c b = m ((c : Thread nD τ).loc b) :=
  StableHlo.after_of_forall_not_mem (b := Proc.devRef .tc b) _ _ (List.forall_iff_forall_mem.mp (by
    simp only [hostOps0, List.Forall, StableHlo.nary_writes, StableHlo.unary_writes, StableHlo.reshape_writes, Finset.mem_singleton]
    obtain ⟨h0, h1, h2, h3, h4, h5, h6, h7, h8, h9⟩ := hb
    exact ⟨StableHlo.devRef_ne_of_ne h0, StableHlo.devRef_ne_of_ne h1, StableHlo.devRef_ne_of_ne h2, StableHlo.devRef_ne_of_ne h3,
      StableHlo.devRef_ne_of_ne h4, StableHlo.devRef_ne_of_ne h5, StableHlo.devRef_ne_of_ne h6, StableHlo.devRef_ne_of_ne h7,
      StableHlo.devRef_ne_of_ne h8, StableHlo.devRef_ne_of_ne h9⟩))

/-! ## The windows' blocks -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body -/

/-- The whole of each staging buffer, as the body's loads and its store address it. -/
abbrev rIn : Rect S4096x129 := Rect.unit (s := S4096x129) ![0, 0] S4096x129.size inb_S4096x129_S4096x129_0_0
abbrev rHid : Rect S4096x128 := Rect.unit (s := S4096x128) ![0, 0] S4096x128.size inb_S4096x128_S4096x128_0_0
abbrev rWt : Rect S128x384 := Rect.unit (s := S128x384) ![0, 0] S128x384.size inb_S128x384_S128x384_0_0
abbrev rBias : Rect S1x384 := Rect.unit (s := S1x384) ![0, 0] S1x384.size inb_S1x384_S1x384_0_0

/-- What the body leaves in the result buffer, as a function of what the six input buffers read: its one store,
    over the whole buffer, of the cell's value of the six loaded blocks. -/
def stored (x0 : Vec F S4096x129 .f32) (x1 : Vec F S4096x128 .f32) (x2 : Vec F S128x384 .bf16) (x3 : Vec F S1x384 .f32)
    (x4 : Vec F S128x384 .bf16) (x5 : Vec F S1x384 .f32) : Vec F S4096x128 .f32 :=
  View.canon [⟨rHid, k0_pay1 (View.ld x0 rIn) (View.ld x1 rHid) (View.ld x2 rWt) (View.ld x3 rBias) (View.ld x4 rWt) (View.ld x5 rBias)⟩]

/-- The one store covers the result buffer: its rectangle is the whole shape. -/
theorem stored_cover (p0 : Vec F S4096x128 .f32) (y : S4096x128.Idx) :
    ∃ pc ∈ ([⟨rHid, p0⟩] : List (View.Piece (Elt F) S4096x128 .f32)), y ∈ pc.1.set :=
  View.cover_of_tiled [⟨rHid, p0⟩] S4096x128.size (by rfl) y

set_option maxHeartbeats 1000000 in
/-- The body's triple: on whole staging buffers, the six inputs' reading `x0 … x5` and the result's holding
    anything, the body runs to its end, leaves the inputs' as they were and the result's reading `stored x0 … x5`. -/
theorem body_triple (c : Dev nD) (E : Set ℕ) (i : grid0.Coords)
    (arg1 : Memref sig .tc .vmem S4096x129 .f32) (harg1 : arg1.IsWhole) (arg2 : Memref sig .tc .vmem S4096x128 .f32) (harg2 : arg2.IsWhole)
    (arg3 : Memref sig .tc .vmem S128x384 .bf16) (harg3 : arg3.IsWhole) (arg4 : Memref sig .tc .vmem S1x384 .f32) (harg4 : arg4.IsWhole)
    (arg5 : Memref sig .tc .vmem S128x384 .bf16) (harg5 : arg5.IsWhole) (arg6 : Memref sig .tc .vmem S1x384 .f32) (harg6 : arg6.IsWhole)
    (arg7 : Memref sig .tc .vmem S4096x128 .f32) (harg7 : arg7.IsWhole)
    (x0 : Vec F S4096x129 .f32) (x1 : Vec F S4096x128 .f32) (x2 : Vec F S128x384 .bf16) (x3 : Vec F S1x384 .f32)
    (x4 : Vec F S128x384 .bf16) (x5 : Vec F S1x384 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (stored x0 x1 x2 x3 x4 x5)) -∗ K ⟨⟩))
      ⊢ wp frame (wpE (defs₀ (F := F)) Variants.none c none) E
          (cc0__augru_kernel i arg1 harg1 arg2 harg2 arg3 harg3 arg4 harg4 arg5 harg5 arg6 harg6 arg7 harg7) K := by
  simp only [cc0__augru_kernel_eq_skeleton]; unfold cc0__augru_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (stored_cover _)

/-! ## The proof data of the launch -/

/-- On core `c`: the arrays as the launch finds them; after the body at point `t` each input buffer at its
    block and the result buffer at `stored` of the six blocks; the rest of the core's state untouched; nothing
    owed to another core; every buffer held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => stored (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t
    = stored (iblk m c 0 t) (iblk m c 1 t) (iblk m c 2 t) (iblk m c 3 t) (iblk m c 4 t) (iblk m c 5 t) := by dsimp only [dats]

/-- Each input's current staging buffer holds its block at every point — at a point that fetches it because it
    was just fetched; at a point that does not, because its block index has not moved since the last fetch and the
    body left the block in place. -/
theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl)
    (fun t => by rw [after_5]; unfold Dat.blockOf iblk; rw [A_eq]; try rfl) t d).trans
    (by unfold Dat.fetched Dat.blockOf iblk; rw [A_eq]; try rfl)

/-! ## The body obligation -/

/-- What the body is called with at point `t`: the untouched rest, and each window's current staging buffer. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' buffers hold their blocks, so the body's triple applies; the rest of the
    state passes through unread. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body_triple c Set.univ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The launch theorem's obligation, at every point. -/
theorem body_obligation (c : Dev nD) : BodyObligation (dats (F := F) m 0 c) (defs₀ (F := F)) Variants.none () Set.univ := fun t => by
  rw [bigSep_W0, bigSep_W0]
  exact body_at m c t

/-! ## The run and the frame -/

set_option backward.isDefEq.respectTransparency.types false in
/-- Every weakly fair execution of @main terminates, and in every final state each staged array is what the
    launch theorem computes from the proof data and every other unscoped buffer is as the launch found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- In any final state of that run the fourteen argument arrays are as they started. The inputs and the hidden
    state are staged by windows 0 and 1, which the launch only reads, so they come back as the launch found them;
    the twelve parameter arrays are staged by no window and are not touched; and the launch found all fourteen
    as they were, no host operation having written them. -/
theorem args_kept (r : PUnit × MemSt nD τ sig (Elt F)) (h : Pipeline.FramePost cfgs (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  ⟨((h c).1 0).trans ((((dats m) 0 c).arrAt_in 0 rfl _).trans ((A_eq m c 0).trans (V_unwritten m c main_arg0 (by decide)))),
      ((h c).1 1).trans ((((dats m) 0 c).arrAt_in 1 rfl _).trans ((A_eq m c 1).trans (V_unwritten m c main_arg1 (by decide)))),
      ((h c).2 main_arg2 (Pipeline.mem_restRefs_of main_arg2 (by decide) (by decide))).trans (V_unwritten m c main_arg2 (by decide)),
      ((h c).2 main_arg3 (Pipeline.mem_restRefs_of main_arg3 (by decide) (by decide))).trans (V_unwritten m c main_arg3 (by decide)),
      ((h c).2 main_arg4 (Pipeline.mem_restRefs_of main_arg4 (by decide) (by decide))).trans (V_unwritten m c main_arg4 (by decide)),
      ((h c).2 main_arg5 (Pipeline.mem_restRefs_of main_arg5 (by decide) (by decide))).trans (V_unwritten m c main_arg5 (by decide)),
      ((h c).2 main_arg6 (Pipeline.mem_restRefs_of main_arg6 (by decide) (by decide))).trans (V_unwritten m c main_arg6 (by decide)),
      ((h c).2 main_arg7 (Pipeline.mem_restRefs_of main_arg7 (by decide) (by decide))).trans (V_unwritten m c main_arg7 (by decide)),
      ((h c).2 main_arg8 (Pipeline.mem_restRefs_of main_arg8 (by decide) (by decide))).trans (V_unwritten m c main_arg8 (by decide)),
      ((h c).2 main_arg9 (Pipeline.mem_restRefs_of main_arg9 (by decide) (by decide))).trans (V_unwritten m c main_arg9 (by decide)),
      ((h c).2 main_arg10 (Pipeline.mem_restRefs_of main_arg10 (by decide) (by decide))).trans (V_unwritten m c main_arg10 (by decide)),
      ((h c).2 main_arg11 (Pipeline.mem_restRefs_of main_arg11 (by decide) (by decide))).trans (V_unwritten m c main_arg11 (by decide)),
      ((h c).2 main_arg12 (Pipeline.mem_restRefs_of main_arg12 (by decide) (by decide))).trans (V_unwritten m c main_arg12 (by decide)),
      ((h c).2 main_arg13 (Pipeline.mem_restRefs_of main_arg13 (by decide) (by decide))).trans (V_unwritten m c main_arg13 (by decide))⟩

/-- The frame: every weakly fair execution of @main terminates without a fault, and the fourteen argument arrays
    end as they started. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => args_kept m r h c) (run_main m ρ)

end Cert.KernelIdeal.Hand

end
-- ==== Proof.Spec.lean ====
/-
  The specification: one step of an attention-gated recurrent cell over a batch of 262144 rows.

  The arguments are an input array of 129 columns per row (128 features followed by one attention weight), the
  hidden state of 128 columns per row, and six dense layers (weights `W[j, k]` of 128 × 128 and biases `b[j]`): an
  input-side and a hidden-side layer for each of the update gate `u`, the reset gate `r` and the candidate `g`.
  Writing `x` for a row's features, `a` for its attention weight, `h` for its hidden row and `σ` for the logistic
  function, entry `j` of the new hidden row is

      u  = σ(⟨x, Wxu[j]⟩ + bxu[j] + ⟨h, Whu[j]⟩ + bhu[j]) · a
      r  = σ(⟨x, Wxr[j]⟩ + bxr[j] + ⟨h, Whr[j]⟩ + bhr[j])
      g  = tanh(⟨x, Wxg[j]⟩ + bxg[j] + r · (⟨h, Whg[j]⟩ + bhg[j]))
      h' = (1 − u) · h[j] + u · g

  on the extended reals, the operations grouped exactly as written (sums of 128 products, then the bias). Nothing here
  mentions a program: both programs are shown to compute this function of the argument arrays, index by index.
-/
import Idealize.ShloMosaic.PureOps.Ideal
import Idealize.ShloMosaic.Lib.ValueIdx

noncomputable section

open scoped BigOperators

namespace Cert.Spec

open Idealize.ShloMosaic Idealize.ShloMosaic.ValueIdx

/-- The inputs: 262144 rows of 128 features and one attention weight. -/
abbrev SIn : Shape := ⟨2, ![262144, 129]⟩
/-- The hidden state, and the result: 262144 rows of 128. -/
abbrev SHid : Shape := ⟨2, ![262144, 128]⟩
/-- A layer's weights `W[j, k]`: output unit `j`, input coordinate `k`. -/
abbrev SWt : Shape := ⟨2, ![128, 128]⟩
/-- A layer's biases. -/
abbrev SBias : Shape := ⟨1, ![128]⟩

/-- Feature `k` of a row sits in column `k` of the 129-column input array. -/
def featCol (k : Fin 128) : Fin 129 := ⟨k.val, by omega⟩
/-- The attention weight sits in the last column. -/
def attnCol : Fin 129 := ⟨128, by decide⟩

/-- The kernel keeps each side's three layers side by side as one layer of 384 output units: unit `j` of the update
    gate's layer is column `j`, of the reset gate's column `128 + j`, of the candidate's column `256 + j`. -/
def colU (j : Fin 128) : Fin 384 := ⟨j.val, by omega⟩
def colR (j : Fin 128) : Fin 384 := ⟨128 + j.val, by omega⟩
def colG (j : Fin 128) : Fin 384 := ⟨256 + j.val, by omega⟩

/-- The inner product of two vectors of 128 extended reals, the sum taken over the coordinates. -/
def dot128 (a b : Fin 128 → EReal) : EReal := ∑ k : Fin 128, a k * b k

/-- The literal one both programs subtract the gate from: the binary32 word of 1.0. -/
def one : EReal := Ideal.ofBits .f32 0x3F800000#32

/-- The cell's arithmetic on the six pre-activations (each an inner product plus its bias), the attention weight
    and the old hidden entry. -/
def gate (lxu lhu lxr lhr lxg lhg attn hj : EReal) : EReal :=
  (one - Ideal.logistic (lxu + lhu) * attn) * hj
    + Ideal.logistic (lxu + lhu) * attn * Ideal.tanh (lxg + Ideal.logistic (lxr + lhr) * lhg)

/-- A dense layer's entry `j` on the vector `a`: `⟨a, W[j]⟩ + b[j]`. -/
def lin (a : Fin 128 → EReal) (W : FVec Ideal SWt .f32) (b : FVec Ideal SBias .f32) (j : Fin 128) : EReal :=
  dot128 a (fun k => W (ix2 j k)) + b (ix1 j)

/-- Entry (`r`, `j`) of the new hidden state. -/
def cell (inp : FVec Ideal SIn .f32) (h : FVec Ideal SHid .f32)
    (Wxu : FVec Ideal SWt .f32) (bxu : FVec Ideal SBias .f32) (Whu : FVec Ideal SWt .f32) (bhu : FVec Ideal SBias .f32)
    (Wxr : FVec Ideal SWt .f32) (bxr : FVec Ideal SBias .f32) (Whr : FVec Ideal SWt .f32) (bhr : FVec Ideal SBias .f32)
    (Wxg : FVec Ideal SWt .f32) (bxg : FVec Ideal SBias .f32) (Whg : FVec Ideal SWt .f32) (bhg : FVec Ideal SBias .f32)
    (r : Fin 262144) (j : Fin 128) : EReal :=
  gate (lin (fun k => inp (ix2 r (featCol k))) Wxu bxu j) (lin (fun k => h (ix2 r k)) Whu bhu j)
       (lin (fun k => inp (ix2 r (featCol k))) Wxr bxr j) (lin (fun k => h (ix2 r k)) Whr bhr j)
       (lin (fun k => inp (ix2 r (featCol k))) Wxg bxg j) (lin (fun k => h (ix2 r k)) Whg bhg j)
       (inp (ix2 r attnCol)) (h (ix2 r j))

/-- The new hidden state as one function of the fourteen argument arrays, in the programs' argument order. -/
def newHidden (inp : FVec Ideal SIn .f32) (h : FVec Ideal SHid .f32)
    (Wxu : FVec Ideal SWt .f32) (bxu : FVec Ideal SBias .f32) (Whu : FVec Ideal SWt .f32) (bhu : FVec Ideal SBias .f32)
    (Wxr : FVec Ideal SWt .f32) (bxr : FVec Ideal SBias .f32) (Whr : FVec Ideal SWt .f32) (bhr : FVec Ideal SBias .f32)
    (Wxg : FVec Ideal SWt .f32) (bxg : FVec Ideal SBias .f32) (Whg : FVec Ideal SWt .f32) (bhg : FVec Ideal SBias .f32) :
    FVec Ideal SHid .f32 :=
  fun i => cell inp h Wxu bxu Whu bhu Wxr bxr Whr bhr Wxg bxg Whg bhg (i 0) (i 1)

end Cert.Spec

end
-- ==== Proof.Stages.lean ====
/-
  What the kernel's launch finds, read one entry at a time (the idealized program, exact arithmetic).

  Before the launch the host stacks the three input-side weight matrices (update, reset, candidate; each
  `W[j, k]`, 128 × 128) on top of each other into one 384 × 128 array, transposes it to 128 × 384, and narrows
  it to the matrix unit's operand format — at exact arithmetic a change of format is the identity. So entry
  `(k, n)` of the array the launch finds is `W_g[j, k]` where column `n` is unit `j` of gate `g`: column `j` is
  the update gate's, `128 + j` the reset gate's, `256 + j` the candidate's. The hidden-side weights are laid
  out the same way, and each side's three bias vectors are stacked into one vector of 384 and reshaped to a
  single row, so entry `(0, n)` of the row is `b_g[j]`.

  At grid point `t` the launch stages rows `4096·t … 4096·t + 4095` of the inputs and of the hidden state, and
  the four derived arrays whole. Entry `(p, k)` of a staged row block is therefore entry `(4096·t + p, k)` of its
  array, and entry `(k, n)` of a staged derived array is that array's own entry `(k, n)`.
-/
import proofs.«123495_j4535485464621_2_alg».proof.Proof.FrameIdeal
import proofs.«123495_j4535485464621_2_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelIdeal.Stages

open Cert.KernelIdeal Cert.KernelIdeal.Gen Cert.KernelIdeal.Hand Cert.Spec
open Idealize.ShloMosaic Idealize.ShloMosaic.TcCoe Idealize.ShloMosaic.ValueIdx Idealize.SL.Sem Idealize.ShloMosaic.StableHlo
open Idealize.ShloMosaic.Pipeline (Dat Cfg Window)

/-! ## Three matrices stacked, transposed and narrowed, read at an entry -/

section Layout

variable (w0 w1 w2 : S128x128.Idx → EReal) (b0 b1 b2 : S128.Idx → EReal)

/-- The stack of the three matrices along the rows. -/
abbrev stack3 : S384x128.Idx → EReal :=
  concatenate S384x128 0 [⟨S128x128, w0⟩, ⟨S128x128, w1⟩, ⟨S128x128, w2⟩] concatenates_S128x128_S128x128_S128x128_S384x128_d0

/-- Row `j` of the stack is row `j` of the first matrix, -/
theorem stack3_U (j k : Fin 128) : stack3 w0 w1 w2 (ix2 (colU j) k) = w0 (ix2 j k) :=
  concatenate_apply_piece (t := S384x128) 0 [⟨S128x128, w0⟩, ⟨S128x128, w1⟩, ⟨S128x128, w2⟩] concatenates_S128x128_S128x128_S128x128_S384x128_d0 (ix2 (colU j) k) 0 (by show 0 < 3; omega)
    S128x128 w0 rfl rfl 0 rfl (ix2 j k)
    (fun b hb => by match b with | ⟨0, _⟩ => exact absurd rfl hb | ⟨1, _⟩ => rfl)
    (by show 0 + j.val = j.val; omega)
/-- row `128 + j` is row `j` of the second, -/
theorem stack3_R (j k : Fin 128) : stack3 w0 w1 w2 (ix2 (colR j) k) = w1 (ix2 j k) :=
  concatenate_apply_piece (t := S384x128) 0 [⟨S128x128, w0⟩, ⟨S128x128, w1⟩, ⟨S128x128, w2⟩] concatenates_S128x128_S128x128_S128x128_S384x128_d0 (ix2 (colR j) k) 1 (by show 1 < 3; omega)
    S128x128 w1 rfl rfl 128 rfl (ix2 j k)
    (fun b hb => by match b with | ⟨0, _⟩ => exact absurd rfl hb | ⟨1, _⟩ => rfl)
    (by show 128 + j.val = 128 + j.val; rfl)
/-- and row `256 + j` is row `j` of the third. -/
theorem stack3_G (j k : Fin 128) : stack3 w0 w1 w2 (ix2 (colG j) k) = w2 (ix2 j k) :=
  concatenate_apply_piece (t := S384x128) 0 [⟨S128x128, w0⟩, ⟨S128x128, w1⟩, ⟨S128x128, w2⟩] concatenates_S128x128_S128x128_S128x128_S384x128_d0 (ix2 (colG j) k) 2 (by show 2 < 3; omega)
    S128x128 w2 rfl rfl 256 rfl (ix2 j k)
    (fun b hb => by match b with | ⟨0, _⟩ => exact absurd rfl hb | ⟨1, _⟩ => rfl)
    (by show 256 + j.val = 256 + j.val; rfl)

/-- The stack transposed and narrowed: what the matrix unit is fed. -/
abbrev fused : S128x384.Idx → EReal :=
  truncf (F := Ideal) .bf16 (transpose S128x384 [1, 0] (stack3 w0 w1 w2) transposes_S384x128_S128x384_1_0) bitsLt_bf16_f32

/-- Entry `(k, n)` of the transpose is entry `(n, k)` of the stack; the narrowing changes nothing. -/
theorem fused_apply (k : Fin 128) (n : Fin 384) : fused w0 w1 w2 (ix2 k n) = stack3 w0 w1 w2 (ix2 n k) := by
  show transpose S128x384 [1, 0] (stack3 w0 w1 w2) transposes_S384x128_S128x384_1_0 (ix2 k n) = _
  exact transpose_apply [1, 0] (stack3 w0 w1 w2) transposes_S384x128_S128x384_1_0 (ix2 k n) (ix2 n k)
    (fun b => by match b with | ⟨0, _⟩ => rfl | ⟨1, _⟩ => rfl)

theorem fused_U (k j : Fin 128) : fused w0 w1 w2 (ix2 k (colU j)) = w0 (ix2 j k) := (fused_apply w0 w1 w2 k _).trans (stack3_U w0 w1 w2 j k)
theorem fused_R (k j : Fin 128) : fused w0 w1 w2 (ix2 k (colR j)) = w1 (ix2 j k) := (fused_apply w0 w1 w2 k _).trans (stack3_R w0 w1 w2 j k)
theorem fused_G (k j : Fin 128) : fused w0 w1 w2 (ix2 k (colG j)) = w2 (ix2 j k) := (fused_apply w0 w1 w2 k _).trans (stack3_G w0 w1 w2 j k)

/-- The three bias vectors end to end. -/
abbrev cat3 : S384.Idx → EReal :=
  concatenate S384 0 [⟨S128, b0⟩, ⟨S128, b1⟩, ⟨S128, b2⟩] concatenates_S128_S128_S128_S384_d0

theorem cat3_U (j : Fin 128) : cat3 b0 b1 b2 (ix1 (colU j)) = b0 (ix1 j) :=
  concatenate_apply_piece (t := S384) 0 [⟨S128, b0⟩, ⟨S128, b1⟩, ⟨S128, b2⟩] concatenates_S128_S128_S128_S384_d0 (ix1 (colU j)) 0 (by show 0 < 3; omega)
    S128 b0 rfl rfl 0 rfl (ix1 j)
    (fun b hb => by match b with | ⟨0, _⟩ => exact absurd rfl hb)
    (by show 0 + j.val = j.val; omega)
theorem cat3_R (j : Fin 128) : cat3 b0 b1 b2 (ix1 (colR j)) = b1 (ix1 j) :=
  concatenate_apply_piece (t := S384) 0 [⟨S128, b0⟩, ⟨S128, b1⟩, ⟨S128, b2⟩] concatenates_S128_S128_S128_S384_d0 (ix1 (colR j)) 1 (by show 1 < 3; omega)
    S128 b1 rfl rfl 128 rfl (ix1 j)
    (fun b hb => by match b with | ⟨0, _⟩ => exact absurd rfl hb)
    (by show 128 + j.val = 128 + j.val; rfl)
theorem cat3_G (j : Fin 128) : cat3 b0 b1 b2 (ix1 (colG j)) = b2 (ix1 j) :=
  concatenate_apply_piece (t := S384) 0 [⟨S128, b0⟩, ⟨S128, b1⟩, ⟨S128, b2⟩] concatenates_S128_S128_S128_S384_d0 (ix1 (colG j)) 2 (by show 2 < 3; omega)
    S128 b2 rfl rfl 256 rfl (ix1 j)
    (fun b hb => by match b with | ⟨0, _⟩ => exact absurd rfl hb)
    (by show 256 + j.val = 256 + j.val; rfl)

/-- The vector of 384 as one row: entry `(0, n)` of the row is entry `n` of the vector (the same position in
    row-major order). -/
abbrev biasRow : S1x384.Idx → EReal := shapeCast S1x384 (cat3 b0 b1 b2) shapeCasts_S384_S1x384

theorem biasRow_apply (n : Fin 384) : biasRow b0 b1 b2 (ix2 (0 : Fin 1) n) = cat3 b0 b1 b2 (ix1 n) :=
  shapeCast_apply (cat3 b0 b1 b2) shapeCasts_S384_S1x384 (ix2 (0 : Fin 1) n) (ix1 n)
    (by rw [Shape.rowMajor_val_one, Shape.rowMajor_val_two]; show n.val = 0 * 384 + n.val; omega)

theorem biasRow_U (j : Fin 128) : biasRow b0 b1 b2 (ix2 (0 : Fin 1) (colU j)) = b0 (ix1 j) := (biasRow_apply b0 b1 b2 _).trans (cat3_U b0 b1 b2 j)
theorem biasRow_R (j : Fin 128) : biasRow b0 b1 b2 (ix2 (0 : Fin 1) (colR j)) = b1 (ix1 j) := (biasRow_apply b0 b1 b2 _).trans (cat3_R b0 b1 b2 j)
theorem biasRow_G (j : Fin 128) : biasRow b0 b1 b2 (ix2 (0 : Fin 1) (colG j)) = b2 (ix1 j) := (biasRow_apply b0 b1 b2 _).trans (cat3_G b0 b1 b2 j)

end Layout

/-! ## What the launch finds in the four derived arrays -/

variable (m : (ℓ : Loc nD τ sig) → Buf (Elt Ideal) ℓ)

/-- Argument `K` of @main on core `c`, as launched. -/
abbrev arg (c : Dev nD) (b : Ref sig .tc) : Buf (Elt Ideal) ((c : Thread nD τ).loc b) := m ((c : Thread nD τ).loc b)

/-- The input-side fused weights: the update, reset and candidate gates' input-side matrices. -/
theorem found_v2 (c : Dev nD) : (V m c main_v2 : S128x384.Idx → EReal)
    = fused (arg m c main_arg2) (arg m c main_arg6) (arg m c main_arg10) := by
  dsimp only [V, hostOps0]; after_results; rfl
/-- The hidden-side fused weights. -/
theorem found_v5 (c : Dev nD) : (V m c main_v5 : S128x384.Idx → EReal)
    = fused (arg m c main_arg4) (arg m c main_arg8) (arg m c main_arg12) := by
  dsimp only [V, hostOps0]; after_results; rfl
/-- The input-side bias row. -/
theorem found_v7 (c : Dev nD) : (V m c main_v7 : S1x384.Idx → EReal)
    = biasRow (arg m c main_arg3) (arg m c main_arg7) (arg m c main_arg11) := by
  dsimp only [V, hostOps0]; after_results; rfl
/-- The hidden-side bias row. -/
theorem found_v9 (c : Dev nD) : (V m c main_v9 : S1x384.Idx → EReal)
    = biasRow (arg m c main_arg5) (arg m c main_arg9) (arg m c main_arg13) := by
  dsimp only [V, hostOps0]; after_results; rfl

/-! ## The windows' blocks read at an entry -/

/-- The grid has 64 points. -/
theorem point_lt (t : Fin cfg0.N) : t.val < 64 := lt_of_lt_of_eq t.isLt N_0

/-- Row `p` of the block staged at point `t` is row `4096·t + p` of the batch. -/
def row (t : Fin cfg0.N) (p : Fin 4096) : Fin 262144 := ⟨t.val * 4096 + p.val, by have := point_lt t; omega⟩

/-- The index maps over the grid: the row windows (inputs, hidden state, result) are at block `(t, 0)`, the four
    resident windows at block `(0, 0)`. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The staged input block, entry `(p, k)`. -/
theorem block_inputs (c : Dev nD) (t : Fin cfg0.N) (p : Fin 4096) (k : Fin 129) :
    iblk m c 0 t (ix2 p k) = arg m c main_arg0 (ix2 (row t p) k) := by
  show V m c main_arg0 (((cfg0.win 0).blk t).view.emb (ix2 p k)) = _
  rw [V_unwritten m c main_arg0 (by decide)]
  obtain ⟨e0, e1, -⟩ := index_facts t
  refine congrArg (arg m c main_arg0) (funext fun a => Fin.ext ?_)
  match a with
  | ⟨0, _⟩ => show win0_0.index t (0 : Fin 2) * 4096 + 1 * p.val = t.val * 4096 + p.val; omega
  | ⟨1, _⟩ => show win0_0.index t (1 : Fin 2) * 129 + 1 * k.val = k.val; omega

/-- The staged hidden block, entry `(p, k)`. -/
theorem block_hidden (c : Dev nD) (t : Fin cfg0.N) (p : Fin 4096) (k : Fin 128) :
    iblk m c 1 t (ix2 p k) = arg m c main_arg1 (ix2 (row t p) k) := by
  show V m c main_arg1 (((cfg0.win 1).blk t).view.emb (ix2 p k)) = _
  rw [V_unwritten m c main_arg1 (by decide)]
  obtain ⟨-, -, e0, e1, -⟩ := index_facts t
  refine congrArg (arg m c main_arg1) (funext fun a => Fin.ext ?_)
  match a with
  | ⟨0, _⟩ => show win0_1.index t (0 : Fin 2) * 4096 + 1 * p.val = t.val * 4096 + p.val; omega
  | ⟨1, _⟩ => show win0_1.index t (1 : Fin 2) * 128 + 1 * k.val = k.val; omega

/-- A resident window's block is its whole array: entry `(k, n)` of the staged input-side weights, -/
theorem block_wx (c : Dev nD) (t : Fin cfg0.N) (k : Fin 128) (n : Fin 384) :
    iblk m c 2 t (ix2 k n) = fused (arg m c main_arg2) (arg m c main_arg6) (arg m c main_arg10) (ix2 k n) := by
  show V m c main_v2 (((cfg0.win 2).blk t).view.emb (ix2 k n)) = _
  rw [found_v2 m c]
  obtain ⟨-, -, -, -, e0, e1, -⟩ := index_facts t
  refine congrArg (fused (arg m c main_arg2) (arg m c main_arg6) (arg m c main_arg10)) (funext fun a => Fin.ext ?_)
  match a with
  | ⟨0, _⟩ => show win0_2.index t (0 : Fin 2) * 128 + 1 * k.val = k.val; omega
  | ⟨1, _⟩ => show win0_2.index t (1 : Fin 2) * 384 + 1 * n.val = n.val; omega

/-- of the staged input-side bias row, -/
theorem block_bx (c : Dev nD) (t : Fin cfg0.N) (n : Fin 384) :
    iblk m c 3 t (ix2 (0 : Fin 1) n) = biasRow (arg m c main_arg3) (arg m c main_arg7) (arg m c main_arg11) (ix2 (0 : Fin 1) n) := by
  show V m c main_v7 (((cfg0.win 3).blk t).view.emb (ix2 (0 : Fin 1) n)) = _
  rw [found_v7 m c]
  obtain ⟨-, -, -, -, -, -, e0, e1, -⟩ := index_facts t
  refine congrArg (biasRow (arg m c main_arg3) (arg m c main_arg7) (arg m c main_arg11)) (funext fun a => Fin.ext ?_)
  match a with
  | ⟨0, _⟩ => show win0_3.index t (0 : Fin 2) * 1 + 1 * 0 = 0; omega
  | ⟨1, _⟩ => show win0_3.index t (1 : Fin 2) * 384 + 1 * n.val = n.val; omega

/-- of the staged hidden-side weights, -/
theorem block_wh (c : Dev nD) (t : Fin cfg0.N) (k : Fin 128) (n : Fin 384) :
    iblk m c 4 t (ix2 k n) = fused (arg m c main_arg4) (arg m c main_arg8) (arg m c main_arg12) (ix2 k n) := by
  show V m c main_v5 (((cfg0.win 4).blk t).view.emb (ix2 k n)) = _
  rw [found_v5 m c]
  obtain ⟨-, -, -, -, -, -, -, -, e0, e1, -⟩ := index_facts t
  refine congrArg (fused (arg m c main_arg4) (arg m c main_arg8) (arg m c main_arg12)) (funext fun a => Fin.ext ?_)
  match a with
  | ⟨0, _⟩ => show win0_4.index t (0 : Fin 2) * 128 + 1 * k.val = k.val; omega
  | ⟨1, _⟩ => show win0_4.index t (1 : Fin 2) * 384 + 1 * n.val = n.val; omega

/-- and of the staged hidden-side bias row. -/
theorem block_bh (c : Dev nD) (t : Fin cfg0.N) (n : Fin 384) :
    iblk m c 5 t (ix2 (0 : Fin 1) n) = biasRow (arg m c main_arg5) (arg m c main_arg9) (arg m c main_arg13) (ix2 (0 : Fin 1) n) := by
  show V m c main_v9 (((cfg0.win 5).blk t).view.emb (ix2 (0 : Fin 1) n)) = _
  rw [found_v9 m c]
  obtain ⟨-, -, -, -, -, -, -, -, -, -, e0, e1, -⟩ := index_facts t
  refine congrArg (biasRow (arg m c main_arg5) (arg m c main_arg9) (arg m c main_arg13)) (funext fun a => Fin.ext ?_)
  match a with
  | ⟨0, _⟩ => show win0_5.index t (0 : Fin 2) * 1 + 1 * 0 = 0; omega
  | ⟨1, _⟩ => show win0_5.index t (1 : Fin 2) * 384 + 1 * n.val = n.val; omega

end Cert.KernelIdeal.Stages

end
-- ==== Proof.CellValue.lean ====
/-
  The kernel body's value at one index.

  The body works on a block of 4096 rows. It reads the block's 129 input columns (128 features, then the attention
  weight), its 128 hidden columns, and for each side one fused layer: a 128 × 384 matrix whose columns are the three
  gates' weight rows laid side by side (update, reset, candidate) with a row of 384 biases. It forms the two
  4096 × 384 products, adds the bias rows, cuts each result into its three 4096 × 128 panels and combines them
  entrywise into the new hidden block.

  This file reads that value at row `p`, column `q`. A product into the zero accumulator is, at the extended reals,
  the plain sum over the 128 contracted coordinates (the change of format of the operands is the identity there), so
  each of the six pre-activations is an inner product of 128 terms plus one bias, taken at column `q`, `128 + q` or
  `256 + q` of the fused layer; the rest is the cell's arithmetic, which the entrywise operations spell exactly as
  the specification's `gate` does.
-/
import proofs.«123495_j4535485464621_2_alg».proof.Proof.Gen.KernelIdeal.Skeleton
import proofs.«123495_j4535485464621_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.CellValue

open Cert.KernelIdeal Cert.KernelIdeal.Gen Idealize.ShloMosaic Idealize.ShloMosaic.ValueIdx

/-! ## The operand indices of the block product

Both block products have the same dimension numbers: 4096 × 128 times 128 × 384, the left operand's columns contracted
with the right operand's rows, no batch axis. At output index `(r, c)` and contraction position `k` the left operand is read at `(r, k)` and the right one at
`(k, c)`: each coordinate is found by looking the axis up in the dimension numbers' lists. -/

/-- The left operand's row is the output's row. -/
theorem lhs_row (i : S4096x384.Idx) (k : dot_S4096x128_S128x384_S4096x384_1_0_0_1_n_n.contr.Idx) : (dot_S4096x128_S128x384_S4096x384_1_0_0_1_n_n.lhsIdx i k 0).val = (i 0).val := by
  unfold DotDims.lhsIdx
  rw [dif_neg (show ¬(0 : Fin S4096x128.rank) ∈ dot_S4096x128_S128x384_S4096x384_1_0_0_1_n_n.lhsBatch by decide),
    dif_pos (show (0 : Fin S4096x128.rank) ∈ dot_S4096x128_S128x384_S4096x384_1_0_0_1_n_n.lhsNonContracting by decide)]
  rfl

/-- The left operand's column is the contraction position. -/
theorem lhs_col (i : S4096x384.Idx) (k : dot_S4096x128_S128x384_S4096x384_1_0_0_1_n_n.contr.Idx) : (dot_S4096x128_S128x384_S4096x384_1_0_0_1_n_n.lhsIdx i k 1).val = (k ⟨0, by decide⟩).val :=
  dot_S4096x128_S128x384_S4096x384_1_0_0_1_n_n.lhsIdx_val_of_single rfl i k

/-- The right operand's row is the contraction position. -/
theorem rhs_row (i : S4096x384.Idx) (k : dot_S4096x128_S128x384_S4096x384_1_0_0_1_n_n.contr.Idx) : (dot_S4096x128_S128x384_S4096x384_1_0_0_1_n_n.rhsIdx i k 0).val = (k ⟨0, by decide⟩).val :=
  dot_S4096x128_S128x384_S4096x384_1_0_0_1_n_n.rhsIdx_val_of_single rfl i k

/-- The right operand's column is the output's column. -/
theorem rhs_col (i : S4096x384.Idx) (k : dot_S4096x128_S128x384_S4096x384_1_0_0_1_n_n.contr.Idx) : (dot_S4096x128_S128x384_S4096x384_1_0_0_1_n_n.rhsIdx i k 1).val = (i 1).val := by
  unfold DotDims.rhsIdx
  rw [dif_neg (show ¬(1 : Fin S128x384.rank) ∈ dot_S4096x128_S128x384_S4096x384_1_0_0_1_n_n.rhsBatch by decide),
    dif_pos (show (1 : Fin S128x384.rank) ∈ dot_S4096x128_S128x384_S4096x384_1_0_0_1_n_n.rhsNonContracting by decide)]
  rfl

/-! ## One block product, and one fused layer, at an index -/

/-- Entry `(p, n)` of a block product into the zero accumulator is `∑ k, a[p, k] · w[k, n]` over the 128 contracted
    coordinates: the product's own sum runs over the one-axis contraction index set, which is carried to
    `Fin 128` by reading off its coordinate. -/
theorem matmul_ix (a : FVec Ideal S4096x128 .bf16) (w : FVec Ideal S128x384 .bf16) (p : Fin 4096) (n : Fin 384) :
    matmul dot_S4096x128_S128x384_S4096x384_1_0_0_1_n_n none a w (constant (F := Ideal) S4096x384 .f32 0x00000000#32) (ix2 p n)
      = ∑ k : Fin 128, a (ix2 p k) * w (ix2 k n) := by
  show FloatOps.matmul dot_S4096x128_S128x384_S4096x384_1_0_0_1_n_n none a w (constant (F := Ideal) S4096x384 .f32 0x00000000#32) (ix2 p n) = _
  rw [Ideal.matmul_constant_zero_apply, ← Equiv.sum_comp (contrEquiv1 dot_S4096x128_S128x384_S4096x384_1_0_0_1_n_n 128 rfl rfl).symm]
  refine Finset.sum_congr rfl fun k _ => ?_
  have hk := contrEquiv1_symm_val dot_S4096x128_S128x384_S4096x384_1_0_0_1_n_n 128 rfl rfl k
  have el : dot_S4096x128_S128x384_S4096x384_1_0_0_1_n_n.lhsIdx (ix2 p n) ((contrEquiv1 dot_S4096x128_S128x384_S4096x384_1_0_0_1_n_n 128 rfl rfl).symm k) = ix2 p k := funext fun ax => Fin.ext (by
    match ax with
    | ⟨0, _⟩ => exact lhs_row _ _
    | ⟨1, _⟩ => exact (lhs_col _ _).trans hk)
  have er : dot_S4096x128_S128x384_S4096x384_1_0_0_1_n_n.rhsIdx (ix2 p n) ((contrEquiv1 dot_S4096x128_S128x384_S4096x384_1_0_0_1_n_n 128 rfl rfl).symm k) = ix2 k n := funext fun ax => Fin.ext (by
    match ax with
    | ⟨0, _⟩ => exact (rhs_row _ _).trans hk
    | ⟨1, _⟩ => exact rhs_col _ _)
  rw [el, er]

/-- One fused layer at `(p, n)`: the rows `a` (their change of format is the identity on extended reals) times the
    weights `w` (cast to their own shape), plus the bias row `b` repeated down the 4096 rows, is the inner product of
    row `p` of `a` with column `n` of `w`, plus `b[n]`. -/
theorem layer_ix (a : FVec Ideal S4096x128 .f32) (w : FVec Ideal S128x384 .bf16) (b : FVec Ideal S1x384 .f32)
    (p : Fin 4096) (n : Fin 384) :
    addf (matmul dot_S4096x128_S128x384_S4096x384_1_0_0_1_n_n none (truncf .bf16 a bitsLt_bf16_f32) (shapeCast S128x384 w shapeCasts_S128x384_S128x384)
            (constant (F := Ideal) S4096x384 .f32 0x00000000#32))
         (broadcastTo S4096x384 (shapeCast S1x384 b shapeCasts_S1x384_S1x384) broadcasts_S1x384_S4096x384) (ix2 p n)
      = Cert.Spec.dot128 (fun k => a (ix2 p k)) (fun k => w (ix2 k n)) + b (ix2 (0 : Fin 1) n) := by
  rw [shapeCast_self, shapeCast_self, addf_apply, matmul_ix, broadcastTo_1b_ab_apply]
  rfl

/-! ## The two sides' pre-activations

Each side's three layers are one layer of 384 output units; its result on the block is a 4096 × 384 array. -/

/-- The input side: the block's first 128 input columns (the features) through the input-side fused layer. -/
def preX (x0 : FVec Ideal S4096x129 .f32) (x2 : FVec Ideal S128x384 .bf16) (x3 : FVec Ideal S1x384 .f32) :
    FVec Ideal S4096x384 .f32 :=
  addf (matmul dot_S4096x128_S128x384_S4096x384_1_0_0_1_n_n none
          (truncf .bf16 (extractStridedSlice S4096x128 ![0, 0] x0 slices_S4096x129_o0_0_S4096x128) bitsLt_bf16_f32)
          (shapeCast S128x384 x2 shapeCasts_S128x384_S128x384) (constant (F := Ideal) S4096x384 .f32 0x00000000#32))
       (broadcastTo S4096x384 (shapeCast S1x384 x3 shapeCasts_S1x384_S1x384) broadcasts_S1x384_S4096x384)

/-- The hidden side: the block's hidden rows through the hidden-side fused layer. -/
def preH (x1 : FVec Ideal S4096x128 .f32) (x4 : FVec Ideal S128x384 .bf16) (x5 : FVec Ideal S1x384 .f32) :
    FVec Ideal S4096x384 .f32 :=
  addf (matmul dot_S4096x128_S128x384_S4096x384_1_0_0_1_n_n none (truncf .bf16 x1 bitsLt_bf16_f32)
          (shapeCast S128x384 x4 shapeCasts_S128x384_S128x384) (constant (F := Ideal) S4096x384 .f32 0x00000000#32))
       (broadcastTo S4096x384 (shapeCast S1x384 x5 shapeCasts_S1x384_S1x384) broadcasts_S1x384_S4096x384)

/-- Entry `(p, n)` of the input side: feature `k` of row `p` is column `k` of the 129-column input, so the inner
    product runs over `x0[p, k]`, `k < 128`. -/
theorem preX_ix (x0 : FVec Ideal S4096x129 .f32) (x2 : FVec Ideal S128x384 .bf16) (x3 : FVec Ideal S1x384 .f32)
    (p : Fin 4096) (n : Fin 384) :
    preX x0 x2 x3 (ix2 p n)
      = Cert.Spec.dot128 (fun k => x0 (ix2 p (Cert.Spec.featCol k))) (fun k => x2 (ix2 k n)) + x3 (ix2 (0 : Fin 1) n) := by
  refine (layer_ix _ x2 x3 p n).trans ?_
  refine congrArg (fun f => Cert.Spec.dot128 f (fun k => x2 (ix2 k n)) + x3 (ix2 (0 : Fin 1) n)) (funext fun k => ?_)
  exact slice2_axis1_apply 0 x0 slices_S4096x129_o0_0_S4096x128 p k (Cert.Spec.featCol k) (Nat.zero_add _).symm

/-- Entry `(p, n)` of the hidden side. -/
theorem preH_ix (x1 : FVec Ideal S4096x128 .f32) (x4 : FVec Ideal S128x384 .bf16) (x5 : FVec Ideal S1x384 .f32)
    (p : Fin 4096) (n : Fin 384) :
    preH x1 x4 x5 (ix2 p n)
      = Cert.Spec.dot128 (fun k => x1 (ix2 p k)) (fun k => x4 (ix2 k n)) + x5 (ix2 (0 : Fin 1) n) :=
  layer_ix x1 x4 x5 p n

/-! ## The three panels, and the attention column -/

/-- The first panel (columns 0 … 127) at `(p, q)` is the update gate's column `q`. -/
theorem panelU_ix (X : FVec Ideal S4096x384 .f32) (p : Fin 4096) (q : Fin 128) :
    extractStridedSlice S4096x128 ![0, 0] X slices_S4096x384_o0_0_S4096x128 (ix2 p q) = X (ix2 p (Cert.Spec.colU q)) :=
  slice2_axis1_apply 0 X slices_S4096x384_o0_0_S4096x128 p q (Cert.Spec.colU q) (Nat.zero_add _).symm

/-- The second panel (columns 128 … 255) at `(p, q)` is the reset gate's column `128 + q`. -/
theorem panelR_ix (X : FVec Ideal S4096x384 .f32) (p : Fin 4096) (q : Fin 128) :
    extractStridedSlice S4096x128 ![0, 128] X slices_S4096x384_o0_128_S4096x128 (ix2 p q) = X (ix2 p (Cert.Spec.colR q)) :=
  slice2_axis1_apply 128 X slices_S4096x384_o0_128_S4096x128 p q (Cert.Spec.colR q) rfl

/-- The third panel (columns 256 … 383) at `(p, q)` is the candidate's column `256 + q`. -/
theorem panelG_ix (X : FVec Ideal S4096x384 .f32) (p : Fin 4096) (q : Fin 128) :
    extractStridedSlice S4096x128 ![0, 256] X slices_S4096x384_o0_256_S4096x128 (ix2 p q) = X (ix2 p (Cert.Spec.colG q)) :=
  slice2_axis1_apply 256 X slices_S4096x384_o0_256_S4096x128 p q (Cert.Spec.colG q) rfl

/-- The input's last column, cut out as a 4096 × 1 array and repeated across the 128 hidden columns, reads at
    `(p, q)` the attention weight of row `p`, whatever `q`. -/
theorem attn_ix (x0 : FVec Ideal S4096x129 .f32) (p : Fin 4096) (q : Fin 128) :
    broadcastTo S4096x128 (extractStridedSlice S4096x1 ![0, 128] x0 slices_S4096x129_o0_128_S4096x1)
        broadcasts_S4096x1_S4096x128 (ix2 p q)
      = x0 (ix2 p Cert.Spec.attnCol) := by
  refine (broadcastTo_apply _ broadcasts_S4096x1_S4096x128 (ix2 p q) (ix2 p (0 : Fin 1)) fun ax => ?_).trans ?_
  · match ax with
    | ⟨0, _⟩ =>
      show p.val = if (4096 : Nat) = 1 then 0 else p.val
      rw [if_neg (by decide)]
    | ⟨1, _⟩ =>
      show (0 : Fin 1).val = if (1 : Nat) = 1 then 0 else q.val
      rw [if_pos rfl]
      rfl
  · exact slice2_axis1_apply 128 x0 slices_S4096x129_o0_128_S4096x1 p (0 : Fin 1) Cert.Spec.attnCol rfl

/-! ## The body's value -/

/-- The body's result, entry by entry, over the two pre-activation arrays' panels, the repeated attention column
    and the hidden block: every operation after the two layers acts entrywise, so this is the program's text read at
    one index. (`1` is the literal the program splats: the binary32 word of 1.0.) -/
theorem pay_unfold (x0 : Vec Ideal S4096x129 .f32) (x1 : Vec Ideal S4096x128 .f32) (x2 : Vec Ideal S128x384 .bf16)
    (x3 : Vec Ideal S1x384 .f32) (x4 : Vec Ideal S128x384 .bf16) (x5 : Vec Ideal S1x384 .f32) (i : S4096x128.Idx) :
    k0_pay1 (F := Ideal) x0 x1 x2 x3 x4 x5 i
      = Cert.Spec.gate
          (extractStridedSlice S4096x128 ![0, 0] (preX x0 x2 x3) slices_S4096x384_o0_0_S4096x128 i)
          (extractStridedSlice S4096x128 ![0, 0] (preH x1 x4 x5) slices_S4096x384_o0_0_S4096x128 i)
          (extractStridedSlice S4096x128 ![0, 128] (preX x0 x2 x3) slices_S4096x384_o0_128_S4096x128 i)
          (extractStridedSlice S4096x128 ![0, 128] (preH x1 x4 x5) slices_S4096x384_o0_128_S4096x128 i)
          (extractStridedSlice S4096x128 ![0, 256] (preX x0 x2 x3) slices_S4096x384_o0_256_S4096x128 i)
          (extractStridedSlice S4096x128 ![0, 256] (preH x1 x4 x5) slices_S4096x384_o0_256_S4096x128 i)
          (broadcastTo S4096x128 (extractStridedSlice S4096x1 ![0, 128] x0 slices_S4096x129_o0_128_S4096x1)
            broadcasts_S4096x1_S4096x128 i)
          (x1 i) := rfl

/-- THE KERNEL BODY'S VALUE at row `p`, column `q` of the block: the cell's arithmetic on the six pre-activations
    (inner products of 128 terms with columns `q`, `128 + q`, `256 + q` of the two fused layers, each plus its bias),
    the row's attention weight and the old hidden entry. -/
theorem pay_apply (x0 : Vec Ideal S4096x129 .f32) (x1 : Vec Ideal S4096x128 .f32) (x2 : Vec Ideal S128x384 .bf16)
    (x3 : Vec Ideal S1x384 .f32) (x4 : Vec Ideal S128x384 .bf16) (x5 : Vec Ideal S1x384 .f32) (p : Fin 4096) (q : Fin 128) :
    Cert.KernelIdeal.Gen.k0_pay1 (F := Ideal) x0 x1 x2 x3 x4 x5 (ix2 p q)
      = Cert.Spec.gate
          (Cert.Spec.dot128 (fun k => x0 (ix2 p (Cert.Spec.featCol k))) (fun k => x2 (ix2 k (Cert.Spec.colU q))) + x3 (ix2 (0 : Fin 1) (Cert.Spec.colU q)))
          (Cert.Spec.dot128 (fun k => x1 (ix2 p k)) (fun k => x4 (ix2 k (Cert.Spec.colU q))) + x5 (ix2 (0 : Fin 1) (Cert.Spec.colU q)))
          (Cert.Spec.dot128 (fun k => x0 (ix2 p (Cert.Spec.featCol k))) (fun k => x2 (ix2 k (Cert.Spec.colR q))) + x3 (ix2 (0 : Fin 1) (Cert.Spec.colR q)))
          (Cert.Spec.dot128 (fun k => x1 (ix2 p k)) (fun k => x4 (ix2 k (Cert.Spec.colR q))) + x5 (ix2 (0 : Fin 1) (Cert.Spec.colR q)))
          (Cert.Spec.dot128 (fun k => x0 (ix2 p (Cert.Spec.featCol k))) (fun k => x2 (ix2 k (Cert.Spec.colG q))) + x3 (ix2 (0 : Fin 1) (Cert.Spec.colG q)))
          (Cert.Spec.dot128 (fun k => x1 (ix2 p k)) (fun k => x4 (ix2 k (Cert.Spec.colG q))) + x5 (ix2 (0 : Fin 1) (Cert.Spec.colG q)))
          (x0 (ix2 p Cert.Spec.attnCol)) (x1 (ix2 p q)) := by
  rw [pay_unfold, panelU_ix, panelU_ix, panelR_ix, panelR_ix, panelG_ix, panelG_ix, attn_ix,
    preX_ix, preX_ix, preX_ix, preH_ix, preH_ix, preH_ix]

end Cert.KernelIdeal.CellValue

end
-- ==== Proof.Result.lean ====
/-
  The idealized kernel's result array, whole: after the run it is the new hidden state of the specification,
  evaluated at the argument arrays as launched.

  At grid point `t` the body's store puts into the result's staging buffer the cell's value of the six staged
  blocks; read at entry `(p, j)`, with the blocks read entry by entry where the launch found them, that is the
  specification's entry `(4096·t + p, j)`: the block's row `p` is batch row `4096·t + p`, column `j`, `128 + j`,
  `256 + j` of a fused weight array is row `j` of the update, reset, candidate gate's matrix, and likewise for the
  bias rows. The pipeline writes that buffer back to rows `4096·t … 4096·t + 4095` of the result array, so what
  point `t` writes back is block `t` of one and the same function of the arguments. The 64 blocks tile the
  262144 rows (row `i` lies in block `i / 4096`), hence the array ends holding that function everywhere.
-/
import proofs.«123495_j4535485464621_2_alg».proof.Proof.Stages
import proofs.«123495_j4535485464621_2_alg».proof.Proof.CellValue

set_option maxRecDepth 16384

noncomputable section

namespace Cert.KernelIdeal.Result

open Cert.KernelIdeal Cert.KernelIdeal.Gen Cert.KernelIdeal.Hand Cert.KernelIdeal.Stages Cert.Spec
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-- The specification at the arguments as launched on core `c`. -/
abbrev want (c : Dev nD) : S262144x128.Idx → EReal :=
  newHidden (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13)

/-- The cell's value of the six blocks staged at point `t`, at entry `(p, j)`, is the specification's entry
    `(4096·t + p, j)`: each factor of each inner product and each bias is read where the launch found it. -/
theorem cell_at (c : Dev nD) (t : Fin cfg0.N) (p : Fin 4096) (j : Fin 128) :
    k0_pay1 (F := Ideal) (iblk m c 0 t) (iblk m c 1 t) (iblk m c 2 t) (iblk m c 3 t) (iblk m c 4 t) (iblk m c 5 t) (ix2 p j)
      = cell (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (row t p) j := by
  refine (Cert.KernelIdeal.CellValue.pay_apply _ _ _ _ _ _ p j).trans ?_
  unfold cell lin
  simp only [block_inputs, block_hidden, block_wx, block_bx, block_wh, block_bh,
    fused_U, fused_R, fused_G, biasRow_U, biasRow_R, biasRow_G]

theorem offsets_zero : (![0, 0] : Fin 2 → Nat) = fun _ => 0 := funext fun a => by fin_cases a <;> rfl

/-- What point `t` writes back is block `t` of the specification. -/
theorem flushed_eq (c : Dev nD) (t : Fin cfg0.N) :
    (dats m 0 c).flushed 6 t = ((cfg0.win 6).blk t).view.read (Elt Ideal) (want m c) := by
  show (cfg0.win 6).cut (grid0.coords t) ((dats m 0 c).after 6 t) = _
  rw [after_6]
  unfold stored
  rw [View.canon_unit_zero offsets_zero]
  simp only [View.ld_unit_zero (S := S4096x129) offsets_zero, View.ld_unit_zero (S := S4096x128) offsets_zero,
    View.ld_unit_zero (S := S128x384) offsets_zero, View.ld_unit_zero (S := S1x384) offsets_zero]
  funext y
  obtain ⟨p, j, rfl⟩ : ∃ (p : Fin 4096) (j : Fin 128), y = ix2 p j := ⟨y 0, y 1, eq_ix2 y⟩
  refine (cell_at m c t p j).trans ?_
  show _ = want m c (((cfg0.win 6).blk t).view.emb (ix2 p j))
  obtain ⟨-, -, -, -, -, -, -, -, -, -, -, -, e0, e1⟩ := index_facts t
  have hr : (((cfg0.win 6).blk t).view.emb (ix2 p j)) 0 = row t p := Fin.ext (by
    show win0_6.index t (0 : Fin 2) * 4096 + 1 * p.val = t.val * 4096 + p.val; omega)
  have hc : (((cfg0.win 6).blk t).view.emb (ix2 p j)) 1 = j := Fin.ext (by
    show win0_6.index t (1 : Fin 2) * 128 + 1 * j.val = j.val; omega)
  show _ = cell (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) ((((cfg0.win 6).blk t).view.emb (ix2 p j)) 0) ((((cfg0.win 6).blk t).view.emb (ix2 p j)) 1)
  rw [hr, hc]

/-- An entry of the result array is in point `t`'s block iff each coordinate is in the block's range on its axis. -/
theorem mem_block (t : Fin cfg0.N) (i : S262144x128.Idx) :
    i ∈ ((cfg0.win 6).blk t).view.set ↔ ∀ a : Fin 2, win0_6.index t a * S4096x128.size a ≤ (i a).val ∧ (i a).val < win0_6.index t a * S4096x128.size a + S4096x128.size a := by
  show i ∈ ((View.whole main_v10).slice (win0_6.rect t)).set ↔ _
  rw [View.set_slice_whole, Rect.mem_set_unit]
  exact Iff.rfl

/-- Every entry is written back by some point: row `i` lies in block `i / 4096`. -/
theorem covered (i : S262144x128.Idx) :
    ∃ t : Fin cfg0.N, (cfg0.win 6).flush t = true ∧ i ∈ ((cfg0.win 6).blk t).view.set := by
  have hi0 : (i 0).val < 262144 := (i 0).isLt
  have hi1 : (i 1).val < 128 := (i 1).isLt
  have hN : cfg0.N = 64 := N_0
  let t : Fin cfg0.N := ⟨(i 0).val / 4096, by rw [hN]; omega⟩
  have ht : t.val = (i 0).val / 4096 := rfl
  obtain ⟨-, -, -, -, -, -, -, -, -, -, -, -, e0, e1⟩ := index_facts t
  refine ⟨t, flush0_6 t, ?_⟩
  rw [mem_block]
  intro a
  match a with
  | ⟨0, _⟩ => show win0_6.index t (0 : Fin 2) * 4096 ≤ (i 0).val ∧ (i 0).val < win0_6.index t (0 : Fin 2) * 4096 + 4096; omega
  | ⟨1, _⟩ => show win0_6.index t (1 : Fin 2) * 128 ≤ (i 1).val ∧ (i 1).val < win0_6.index t (1 : Fin 2) * 128 + 128; omega

/-- The result array after the run is the specification. -/
theorem final (c : Dev nD) : (dats m 0 c).arrAt 6 cfg0.N = want m c :=
  (dats m 0 c).arrAt_eq_of_cover 6 (want m c) (fun t _ => flushed_eq m c t) covered

/-- The idealized kernel's run: it terminates without a fault, the result array ends at the specification of the
    launched arguments, and the arguments end as they started. -/
theorem run : θ_run defs (onTc (τ := τ) (main (F := Ideal))) ⟨m, fun _ => 0, ρ⟩ (fun r => ∀ c : Dev nD,
      r.2.mem ((c.tc : Thread nD τ).loc main_v10) = want m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨((h c).1 6).trans (final m c), args_kept m r h c⟩) (run_main m ρ)

end Cert.KernelIdeal.Result

end
-- ==== Proof.RefValue.lean ====
/-
  The reference program computes the specification.

  The reference takes the first 128 columns of the input array as the features and the last column as the attention
  weight, and forms six dense layers: each one inner product over the 128 columns against a row of the weights, plus
  that row's bias. The update gate is the logistic function of the sum of the first two layers, written out as
  1 / (1 + exp(-z)), times the attention weight; the reset gate is the same expression on the next two layers; the
  candidate is the hyperbolic tangent of the fifth layer plus the reset gate times the sixth; and the new hidden entry
  is (1 - u) * h + u * g. Read at one row and one column, every one of these operations is the same-named term of
  the specification's cell, grouped the same way, so nothing is rearranged: the proof only says where each
  operation reads its operands, and that 1 / (1 + exp(-z)) with the binary32 word of 1.0 for its ones is the
  logistic function.
-/
import proofs.«123495_j4535485464621_2_alg».proof.Proof.Gen.ReferenceIdeal.Read
import proofs.«123495_j4535485464621_2_alg».proof.Proof.Spec

noncomputable section

open scoped BigOperators

namespace Cert.ReferenceIdeal.RefValue

open Cert.ReferenceIdeal Cert.ReferenceIdeal.Read Idealize.ShloMosaic Idealize.ShloMosaic.ValueIdx Idealize.SL.Sem
open Cert.Spec

/-! ## Where each operation reads its operands

Every index below is built from a row \`r\` of the batch and columns \`j\`, \`k\` of literal ranges, so that an index
equation is decided coordinate by coordinate. -/

/-- Column \`k\` of the slice \`inputs[:, :128]\` is column \`k\` of the input array: feature \`k\` of row \`r\`. -/
theorem feat_idx (r : Fin 262144) (k : Fin 128) : idx_main_v0 (ix2 r k) = ix2 r (featCol k) :=
  funext fun a => Fin.ext (by match a with | ⟨0, _⟩ => rfl | ⟨1, _⟩ => rfl)

/-- The slice \`inputs[:, 128:]\` has one column, and broadcasting it along the 128 columns reads that column whatever
    \`j\` is: entry (\`r\`, \`j\`) of the broadcast is the attention weight of row \`r\`, the input array's last column. -/
theorem attn_idx (r : Fin 262144) (j : Fin 128) : idx_main_v1 (idx_main_v17 (ix2 r j)) = ix2 r attnCol :=
  funext fun a => Fin.ext (by match a with | ⟨0, _⟩ => rfl | ⟨1, _⟩ => rfl)

/-- A bias vector is first given a leading axis of size one and then repeated down the rows: entry (\`r\`, \`j\`) of the
    result is the bias of output unit \`j\`. -/
theorem bias_idx (r : Fin 262144) (j : Fin 128) : idx_main_v3 (idx_main_v4 (ix2 r j)) = ix1 j :=
  funext fun a => Fin.ext (by match a with | ⟨0, _⟩ => rfl)

/-- In the contraction \`einsum("bi,hi->bh")\` term \`k\` of entry (\`r\`, \`j\`) reads the left array at (\`r\`, \`k\`) … -/
theorem left_idx (r : Fin 262144) (j k : Fin 128) : lidx_main_v2 (ix2 r j) k = ix2 r k :=
  funext fun a => Fin.ext (by match a with | ⟨0, _⟩ => rfl | ⟨1, _⟩ => rfl)

/-- … and the weights at (\`j\`, \`k\`): row \`j\` of the weights is output unit \`j\`'s. -/
theorem weight_idx (r : Fin 262144) (j k : Fin 128) : ridx_main_v2 (ix2 r j) k = ix2 j k :=
  funext fun a => Fin.ext (by match a with | ⟨0, _⟩ => rfl | ⟨1, _⟩ => rfl)

/-! ## The six dense layers -/

/-- A layer on the features: the inner product of row \`r\`'s 128 features with row \`j\` of the weights, plus bias \`j\`.
    The reference's inner product reads the feature slice, which reads the input array's first 128 columns. -/
theorem lin_feat (inp : FVec Ideal SIn .f32) (W : FVec Ideal SWt .f32) (b : FVec Ideal SBias .f32)
    (r : Fin 262144) (j : Fin 128) :
    (∑ k : Fin 128, val_main_v0 (F := Ideal) inp (lidx_main_v2 (ix2 r j) k) * W (ridx_main_v2 (ix2 r j) k))
        + b (idx_main_v3 (idx_main_v4 (ix2 r j)))
      = lin (fun k => inp (ix2 r (featCol k))) W b j := by
  unfold lin dot128
  rw [bias_idx]
  refine congrArg (· + b (ix1 j)) (Finset.sum_congr rfl fun k _ => ?_)
  rw [left_idx, weight_idx, val_main_v0_apply, feat_idx]

/-- A layer on the hidden state: the inner product of row \`r\` of the hidden state with row \`j\` of the weights, plus
    bias \`j\`. -/
theorem lin_hid (h : FVec Ideal SHid .f32) (W : FVec Ideal SWt .f32) (b : FVec Ideal SBias .f32)
    (r : Fin 262144) (j : Fin 128) :
    (∑ k : Fin 128, h (lidx_main_v2 (ix2 r j) k) * W (ridx_main_v2 (ix2 r j) k))
        + b (idx_main_v3 (idx_main_v4 (ix2 r j)))
      = lin (fun k => h (ix2 r k)) W b j := by
  unfold lin dot128
  rw [bias_idx]
  refine congrArg (· + b (ix1 j)) (Finset.sum_congr rfl fun k _ => ?_)
  rw [left_idx, weight_idx]

/-! ## The logistic function as the reference spells it -/

/-- The binary32 word of 1.0 denotes the extended real 1. -/
theorem one_eq : Spec.one = 1 := by
  unfold Spec.one
  simp [Ideal.ofBits, Ideal.ieee, -EReal.coe_mul]; norm_num

/-- \`1 / (1 + exp(-z))\`, the ones being the binary32 word of 1.0, is the logistic function of \`z\`. -/
theorem sigmoid_spelt (z : EReal) :
    Ideal.div (Ideal.ofBits .f32 0x3F800000#32) (Ideal.ofBits .f32 0x3F800000#32 + Ideal.exp (-z)) = Ideal.logistic z := by
  rw [show Ideal.ofBits .f32 0x3F800000#32 = 1 from one_eq]; rfl

/-! ## The reference at one entry -/

/-- The array the reference returns is the specification's new hidden state: at row `r` and column `j` the reference's
    last operation, read back through its operands, is the cell of `r` and `j` on the fourteen argument arrays. -/
theorem ref_is_spec
    (x0 : (⟨S262144x129, .f32⟩ : BufTy).Contents (Elt Ideal)) (x1 : (⟨S262144x128, .f32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal))
    (x8 : (⟨S128x128, .f32⟩ : BufTy).Contents (Elt Ideal)) (x9 : (⟨S128, .f32⟩ : BufTy).Contents (Elt Ideal))
    (x10 : (⟨S128x128, .f32⟩ : BufTy).Contents (Elt Ideal)) (x11 : (⟨S128, .f32⟩ : BufTy).Contents (Elt Ideal))
    (x12 : (⟨S128x128, .f32⟩ : BufTy).Contents (Elt Ideal)) (x13 : (⟨S128, .f32⟩ : BufTy).Contents (Elt Ideal)) :
    Cert.ReferenceIdeal.Read.val_main_v49 (F := Ideal) x0 x1 x2 x3 x4 x5 x6 x7 x8 x9 x10 x11 x12 x13
      = Cert.Spec.newHidden x0 x1 x2 x3 x4 x5 x6 x7 x8 x9 x10 x11 x12 x13 := by
  funext i
  obtain ⟨r, j, rfl⟩ : ∃ (r : Fin 262144) (j : Fin 128), i = ix2 r j := ⟨i 0, i 1, eq_ix2 i⟩
  -- The six layers at entry (r, j): each is an inner product followed by the broadcast bias.
  have hxu : val_main_v5 (F := Ideal) x0 x2 x3 (ix2 r j) = lin (fun k => x0 (ix2 r (featCol k))) x2 x3 j := by
    rw [val_main_v5_apply, val_main_v2_apply, val_main_v4_apply, val_main_v3_apply]; exact lin_feat x0 x2 x3 r j
  have hhu : val_main_v9 (F := Ideal) x1 x4 x5 (ix2 r j) = lin (fun k => x1 (ix2 r k)) x4 x5 j := by
    rw [val_main_v9_apply, val_main_v6_apply, val_main_v8_apply, val_main_v7_apply]; exact lin_hid x1 x4 x5 r j
  have hxr : val_main_v22 (F := Ideal) x0 x6 x7 (ix2 r j) = lin (fun k => x0 (ix2 r (featCol k))) x6 x7 j := by
    rw [val_main_v22_apply, val_main_v19_apply, val_main_v21_apply, val_main_v20_apply]; exact lin_feat x0 x6 x7 r j
  have hhr : val_main_v26 (F := Ideal) x1 x8 x9 (ix2 r j) = lin (fun k => x1 (ix2 r k)) x8 x9 j := by
    rw [val_main_v26_apply, val_main_v23_apply, val_main_v25_apply, val_main_v24_apply]; exact lin_hid x1 x8 x9 r j
  have hxg : val_main_v37 (F := Ideal) x0 x10 x11 (ix2 r j) = lin (fun k => x0 (ix2 r (featCol k))) x10 x11 j := by
    rw [val_main_v37_apply, val_main_v34_apply, val_main_v36_apply, val_main_v35_apply]; exact lin_feat x0 x10 x11 r j
  have hhg : val_main_v41 (F := Ideal) x1 x12 x13 (ix2 r j) = lin (fun k => x1 (ix2 r k)) x12 x13 j := by
    rw [val_main_v41_apply, val_main_v38_apply, val_main_v40_apply, val_main_v39_apply]; exact lin_hid x1 x12 x13 r j
  -- The attention weight of row r.
  have hat : val_main_v17 (F := Ideal) x0 (ix2 r j) = x0 (ix2 r attnCol) := by
    rw [val_main_v17_apply, val_main_v1_apply, attn_idx]
  -- The right side at (r, j) is the cell of row r and column j.
  show _ = cell x0 x1 x2 x3 x4 x5 x6 x7 x8 x9 x10 x11 x12 x13 r j
  unfold cell gate
  -- Read the reference from its last operation inwards. h' = (1 - u) * h + u * g, with u = sigmoid(xu + hu) * attention;
  -- g = tanh(xg + sigmoid(xr + hr) * hg); each sigmoid is a quotient of the constant one by one plus an exponential
  -- of a negation; the constants are broadcasts of the scalar word of 1.0.
  rw [val_main_v49_apply, val_main_v47_apply, val_main_v48_apply, val_main_v46_apply, val_main_v18_apply,
    val_main_v16_apply, val_main_v14_apply, val_main_v12_apply, val_main_v11_apply, val_main_v10_apply, hxu, hhu, hat,
    val_main_v44_apply, val_main_v43_apply, hxg, val_main_v42_apply, hhg,
    val_main_v33_apply, val_main_v31_apply, val_main_v29_apply, val_main_v28_apply, val_main_v27_apply, hxr, hhr,
    val_main_v45_apply, val_main_cst_3_apply, val_main_v15_apply, val_main_cst_0_apply, val_main_v13_apply,
    val_main_cst_apply, val_main_v32_apply, val_main_cst_2_apply, val_main_v30_apply, val_main_cst_1_apply]
  -- On the extended reals the operations are the field's, and the host's negation, exponential, quotient and
  -- hyperbolic tangent are the ideal ones.
  simp only [Ideal.ofBits_def, Ideal.addf_def, Ideal.subf_def, Ideal.mulf_def, Ideal.hostDivf_def,
    Ideal.hostUnary_exp_def, Ideal.hostUnary_tanh_def, Ideal.hostNegf_def, Ideal.negf_def]
  -- Both spelt-out quotients are the logistic function; what is left is the cell, term for term.
  rw [sigmoid_spelt, sigmoid_spelt]
  rfl

end Cert.ReferenceIdeal.RefValue

end
-- ==== Proof.lean ====
/-
  One step of an attention-gated recurrent cell over a batch of 262144 rows: a kernel that walks the batch in 64
  blocks of 4096 rows, with each side's three dense layers fused into one 128 × 384 matrix product, against the plain
  reference that applies the six layers one by one.

  Both programs compute, for row `r` and unit `j`,

      u  = σ(⟨x, Wxu[j]⟩ + bxu[j] + ⟨h, Whu[j]⟩ + bhu[j]) · a
      ρ  = σ(⟨x, Wxr[j]⟩ + bxr[j] + ⟨h, Whr[j]⟩ + bhr[j])
      g  = tanh(⟨x, Wxg[j]⟩ + bxg[j] + ρ · (⟨h, Whg[j]⟩ + bhg[j]))
      h' = (1 − u) · h[j] + u · g

  with `x` the row's 128 features, `a` its attention weight (column 128 of the input array) and `h` its hidden row
  (Proof/Spec.lean). On the extended reals the two sides agree term by term, grouped alike: the kernel's fused
  product at column `j`, `128 + j`, `256 + j` is the inner product with row `j` of the update, reset, candidate
  gate's matrix, because the fused matrix is the three matrices stacked and transposed (a narrowing of the operand
  format is the identity here); a sum over the 128 coordinates is the same sum in either program; and the kernel's
  one-operation logistic function is by definition the reference's `1 / (1 + exp(−z))`. No law that needs finite
  values is used, so the precondition is never opened.

  The parts: Proof/FrameBits.lean and Proof/FrameIdeal.lean — each kernel program runs to its end without a fault and
  leaves its arguments alone, and (the same run) leaves in the result array what the launch computes from the body's
  store at each grid point; Proof/CellValue.lean — the body's stored value at an entry, as the cell's arithmetic of
  entries of the six staged blocks; Proof/Stages.lean — what the launch finds in the stacked, transposed weight
  arrays and the bias rows, and each staged block, entry by entry; Proof/Result.lean — the 64 blocks written back
  tile the result array, which therefore ends at the specification of the arguments; Proof/RefValue.lean — the
  reference's result, operation by operation, is the specification. The reference's own run (termination, no fault,
  arguments unchanged, the result as the composed term of its operations) is the generated module's.
-/
import proofs.«123495_j4535485464621_2_alg».proof.Defs
import proofs.«123495_j4535485464621_2_alg».proof.Proof.Gen.Kernel
import proofs.«123495_j4535485464621_2_alg».proof.Proof.Gen.KernelIdeal
import proofs.«123495_j4535485464621_2_alg».proof.Proof.Gen.ReferenceIdeal
import proofs.«123495_j4535485464621_2_alg».proof.Proof.Gen.Pre_finite_inputs
import proofs.«123495_j4535485464621_2_alg».proof.Proof.Gen.ReferenceIdeal.Run
import proofs.«123495_j4535485464621_2_alg».proof.Proof.Gen.ReferenceIdeal.Read
import proofs.«123495_j4535485464621_2_alg».proof.Proof.FrameBits
import proofs.«123495_j4535485464621_2_alg».proof.Proof.FrameIdeal
import proofs.«123495_j4535485464621_2_alg».proof.Proof.Result
import proofs.«123495_j4535485464621_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs to its end, faults nowhere and leaves its arguments unchanged. -/
theorem frame_kernel : Cert.frame_Kernel := fun m ρ _ => Cert.Kernel.Hand.frame m ρ

/-- So does its idealization. -/
theorem frame_kernelIdeal : Cert.frame_KernelIdeal := fun m ρ _ => Cert.KernelIdeal.Hand.frame m ρ

/-- So does the reference: its run, with the statement about the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation of the kernel: there is nothing to preserve. -/
theorem preserves : Cert.preserves_Kernel_KernelIdeal := trivial

/-- From memories that agree on the fourteen arguments both idealized programs end with the result array at the
    specification of those arguments: the kernel's by the blocks it writes back, the reference's operation by
    operation. -/
theorem algebraic : Cert.algebraic_KernelIdeal_ReferenceIdeal := by
  intro m ρ m' ρ' _ hagree
  refine ⟨fun c => Cert.KernelIdeal.Result.want m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13⟩ := hagree c
  rw [Cert.ReferenceIdeal.Read.val_main_v49_eq, Cert.ReferenceIdeal.RefValue.ref_is_spec,
    h0, h1, h2, h3, h4, h5, h6, h7, h8, h9, h10, h11, h12, h13]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
